-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S64 : Shape := ⟨1, ![64]⟩
abbrev S64x64x6 : Shape := ⟨3, ![64, 64, 6]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S64x64x6 : S_.BroadcastsInDim S64x64x6 (![] : Fin 0 → Fin S64x64x6.rank)
  reducesTo_S64x64x6_S_d0_1_2 : S64x64x6.ReducesTo [0, 1, 2] S_

variable [Facts]

def fn {F : FTy → Type} [FloatOps F] (main_arg0 : FVec F S64x2048 .f32) (main_arg1 : IVec S64 32) (main_arg2 : FVec F S64x64x6 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S64x64x6 .f32 := Host.absf main_arg2
  let main_cst_0 : FVec F S_ .f32 := constant S_ .f32 0x7F800000#32
  let main_v5 : FVec F S64x64x6 .f32 := broadcastInDim S64x64x6 ![] bcast_S_S64x64x6 main_cst_0
  let main_v6 : IVec S64x64x6 1 := cmpf .olt main_v4 main_v5
  let main_c_1 : IVec S_ 1 := constantI S_ 1 1#1
  let main_v7 : IVec S_ 1 := (fun x v => Host.reduce IntOp.andi x v reducesTo_S64x64x6_S_d0_1_2 h_S_) main_v6 main_c_1
  let main_v8 : IVec S_ 1 := andi main_v3 main_v7
  main_v8
-- ==== Kernel.lean ====
abbrev S64x2048 : Shape := ⟨2, ![64, 2048]⟩
abbrev S64 : Shape := ⟨1, ![64]⟩
abbrev S64x64x6 : Shape := ⟨3, ![64, 64, 6]⟩
abbrev S64x341 : Shape := ⟨2, ![64, 341]⟩
abbrev S64x343 : Shape := ⟨2, ![64, 343]⟩
abbrev S64x64x1 : Shape := ⟨3, ![64, 64, 1]⟩
abbrev S64x64 : Shape := ⟨2, ![64, 64]⟩
abbrev S64x1 : Shape := ⟨2, ![64, 1]⟩
abbrev S1x1 : Shape := ⟨2, ![1, 1]⟩
abbrev S1x64 : Shape := ⟨2, ![1, 64]⟩
abbrev S341x64 : Shape := ⟨2, ![341, 64]⟩
abbrev S343x64 : Shape := ⟨2, ![343, 64]⟩
abbrev S1 : Shape := ⟨1, ![1]⟩
abbrev S_ : Shape := ⟨0, ![]⟩

abbrev nBuf : Space → Nat
  | .hbm => 24
  | .vmem => 14
  | .smem => 0
  | _ => 0

abbrev bufTy : (tb : Table) → Fin (tcTables nBuf tb) → BufTy
  | .hbm, ⟨0, _⟩ => ⟨S64x2048, .f32⟩
  | .hbm, ⟨1, _⟩ => ⟨S64, .i32⟩
  | .hbm, ⟨2, _⟩ => ⟨S64x64x6, .f32⟩
  | .hbm, ⟨3, _⟩ => ⟨S64x341, .f32⟩
  | .hbm, ⟨4, _⟩ => ⟨S64x341, .f32⟩
  | .hbm, ⟨5, _⟩ => ⟨S64x341, .f32⟩
  | .hbm, ⟨6, _⟩ => ⟨S64x341, .f32⟩
  | .hbm, ⟨7, _⟩ => ⟨S64x341, .f32⟩
  | .hbm, ⟨8, _⟩ => ⟨S64x343, .f32⟩
  | .hbm, ⟨9, _⟩ => ⟨S64x64x1, .f32⟩
  | .hbm, ⟨10, _⟩ => ⟨S64x64, .f32⟩
  | .hbm, ⟨11, _⟩ => ⟨S64x64x1, .f32⟩
  | .hbm, ⟨12, _⟩ => ⟨S64x64, .f32⟩
  | .hbm, ⟨13, _⟩ => ⟨S64x64x1, .f32⟩
  | .hbm, ⟨14, _⟩ => ⟨S64x64, .f32⟩
  | .hbm, ⟨15, _⟩ => ⟨S64x64x1, .f32⟩
  | .hbm, ⟨16, _⟩ => ⟨S64x64, .f32⟩
  | .hbm, ⟨17, _⟩ => ⟨S64x64x1, .f32⟩
  | .hbm, ⟨18, _⟩ => ⟨S64x64, .f32⟩
  | .hbm, ⟨19, _⟩ => ⟨S64x64x1, .f32⟩
  | .hbm, ⟨20, _⟩ => ⟨S64x64, .f32⟩
  | .hbm, ⟨21, _⟩ => ⟨S64x1, .i32⟩
  | .hbm, ⟨22, _⟩ => ⟨S1x1, .f32⟩
  | .hbm, ⟨23, _⟩ => ⟨S_, .f32⟩
  | .local _ .vmem, ⟨0, _⟩ => ⟨S64x341, .f32⟩
  | .local _ .vmem, ⟨1, _⟩ => ⟨S64x341, .f32⟩
  | .local _ .vmem, ⟨2, _⟩ => ⟨S64x341, .f32⟩
  | .local _ .vmem, ⟨3, _⟩ => ⟨S64x341, .f32⟩
  | .local _ .vmem, ⟨4, _⟩ => ⟨S64x341, .f32⟩
  | .local _ .vmem, ⟨5, _⟩ => ⟨S64x343, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S64x1, .i32⟩
  | .local _ .vmem, ⟨13, _⟩ => ⟨S1x1, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x341 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x341 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x341 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x341 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x341 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x343 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  slices_S64x2048_S64x341_0_0 : S64x2048.Slices ![0, 0] S64x341
  slices_S64x2048_S64x341_0_341 : S64x2048.Slices ![0, 341] S64x341
  slices_S64x2048_S64x341_0_682 : S64x2048.Slices ![0, 682] S64x341
  slices_S64x2048_S64x341_0_1023 : S64x2048.Slices ![0, 1023] S64x341
  slices_S64x2048_S64x341_0_1364 : S64x2048.Slices ![0, 1364] S64x341
  slices_S64x2048_S64x343_0_1705 : S64x2048.Slices ![0, 1705] S64x343
  slices_S64x64x6_S64x64x1_0_0_0 : S64x64x6.Slices ![0, 0, 0] S64x64x1
  shapeCasts_S64x64x1_S64x64 : S64x64x1.ShapeCasts S64x64
  slices_S64x64x6_S64x64x1_0_0_1 : S64x64x6.Slices ![0, 0, 1] S64x64x1
  slices_S64x64x6_S64x64x1_0_0_2 : S64x64x6.Slices ![0, 0, 2] S64x64x1
  slices_S64x64x6_S64x64x1_0_0_3 : S64x64x6.Slices ![0, 0, 3] S64x64x1
  slices_S64x64x6_S64x64x1_0_0_4 : S64x64x6.Slices ![0, 0, 4] S64x64x1
  slices_S64x64x6_S64x64x1_0_0_5 : S64x64x6.Slices ![0, 0, 5] S64x64x1
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  transposes_S64x1_p1_0_S1x64 : S64x1.Transposes [1, 0] S1x64
  broadcasts_S64x1_S64x64 : S64x1.Broadcasts S64x64
  broadcasts_S1x64_S64x64 : S1x64.Broadcasts S64x64
  inb_S64x341_S64x341_0_0 : ∀ a, (![0, 0] : Fin 2 → Nat) a + S64x341.size a ≤ S64x341.size a
  h_S64x341 : 0 < S64x341.numel
  shapeCasts_S64x341_S64x341 : S64x341.ShapeCasts S64x341
  bitsLt_bf16_f32 : FTy.bits .bf16 < FTy.bits .f32
  transposes_S64x341_p1_0_S341x64 : S64x341.Transposes [1, 0] S341x64
  reduces_S64x341_S64 : S64x341.Reduces [1] S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x343_S64x343_0_0 : ∀ a, (![0, 0] : Fin 2 → Nat) a + S64x343.size a ≤ S64x343.size a
  h_S64x343 : 0 < S64x343.numel
  shapeCasts_S64x343_S64x343 : S64x343.ShapeCasts S64x343
  transposes_S64x343_p1_0_S343x64 : S64x343.Transposes [1, 0] S343x64
  reduces_S64x343_S64 : S64x343.Reduces [1] S64
  reduces_S64x64_S64 : S64x64.Reduces [1] S64
  reduces_S64x1_S1 : S64x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S64x341_S341x64_S64x64_1_0_0_1_n_n_wf : DotDims.WF S64x341 S341x64 S64x64 [1] [0] [0] [1] [] []
  dot_S64x343_S343x64_S64x64_1_0_0_1_n_n_wf : DotDims.WF S64x343 S343x64 S64x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x341.size a ≤ S64x341.size a
  hwx0_0 : ∀ i : grid0.Coords, EltTy.bits .f32 = 32 ∨ (Rect.block (s := S64x341) S64x341.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x341.size a ≤ S64x341.size a
  hwx0_1 : ∀ i : grid0.Coords, EltTy.bits .f32 = 32 ∨ (Rect.block (s := S64x341) S64x341.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x341.size a ≤ S64x341.size a
  hwx0_2 : ∀ i : grid0.Coords, EltTy.bits .f32 = 32 ∨ (Rect.block (s := S64x341) S64x341.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x341.size a ≤ S64x341.size a
  hwx0_3 : ∀ i : grid0.Coords, EltTy.bits .f32 = 32 ∨ (Rect.block (s := S64x341) S64x341.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x341.size a ≤ S64x341.size a
  hwx0_4 : ∀ i : grid0.Coords, EltTy.bits .f32 = 32 ∨ (Rect.block (s := S64x341) S64x341.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x343.size a ≤ S64x343.size a
  hwx0_5 : ∀ i : grid0.Coords, EltTy.bits .f32 = 32 ∨ (Rect.block (s := S64x343) S64x343.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S64x1.size a
  hwx0_12 : ∀ i : grid0.Coords, EltTy.bits .i32 = 32 ∨ (Rect.block (s := S64x1) S64x1.size (cc0_transform_12 i) (hinb0_12 i)).WholeWords (EltTy.packing .i32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)

variable [Facts₀]

def dot_S64x341_S341x64_S64x64_1_0_0_1_n_n : DotDims S64x341 S341x64 S64x64 where
  lhsContracting := [1]
  rhsContracting := [0]
  lhsNonContracting := [0]
  rhsNonContracting := [1]
  lhsBatch := []
  rhsBatch := []
  wf := dot_S64x341_S341x64_S64x64_1_0_0_1_n_n_wf
def dot_S64x343_S343x64_S64x64_1_0_0_1_n_n : DotDims S64x343 S343x64 S64x64 where
  lhsContracting := [1]
  rhsContracting := [0]
  lhsNonContracting := [0]
  rhsNonContracting := [1]
  lhsBatch := []
  rhsBatch := []
  wf := dot_S64x343_S343x64_S64x64_1_0_0_1_n_n_wf

abbrev win0_0 : Pipeline.Window sig grid0 :=
  Pipeline.Window.ofSpec (Memref.whole main_v0) S64x341.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x341.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x341.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x341.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x341.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x343.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v18) S64x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v19) S1x1.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S64x2048 : Shape := ⟨2, ![64, 2048]⟩
abbrev S64 : Shape := ⟨1, ![64]⟩
abbrev S64x64x6 : Shape := ⟨3, ![64, 64, 6]⟩
abbrev S2048 : Shape := ⟨1, ![2048]⟩
abbrev S_ : Shape := ⟨0, ![]⟩
abbrev S2048x1 : Shape := ⟨2, ![2048, 1]⟩
abbrev S64x64x2048 : Shape := ⟨3, ![64, 64, 2048]⟩
abbrev S1x64x2048 : Shape := ⟨3, ![1, 64, 2048]⟩
abbrev S64x1x2048 : Shape := ⟨3, ![64, 1, 2048]⟩
abbrev S64x64 : Shape := ⟨2, ![64, 64]⟩
abbrev S64x1 : Shape := ⟨2, ![64, 1]⟩
abbrev S1x64 : Shape := ⟨2, ![1, 64]⟩

abbrev nBuf : Space → Nat
  | .hbm => 53
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64, .i32⟩
  | .hbm, ⟨2, _⟩ => ⟨S64x64x6, .f32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S64x64x2048, .f32⟩
  | .hbm, ⟨11, _⟩ => ⟨S1x64x2048, .f32⟩
  | .hbm, ⟨12, _⟩ => ⟨S64x1x2048, .f32⟩
  | .hbm, ⟨13, _⟩ => ⟨S64x64x2048, .f32⟩
  | .hbm, ⟨14, _⟩ => ⟨S64x64x2048, .f32⟩
  | .hbm, ⟨15, _⟩ => ⟨S64x64x2048, .f32⟩
  | .hbm, ⟨16, _⟩ => ⟨S64x64x2048, .f32⟩
  | .hbm, ⟨17, _⟩ => ⟨S64x64x2048, .f32⟩
  | .hbm, ⟨18, _⟩ => ⟨S_, .f32⟩
  | .hbm, ⟨19, _⟩ => ⟨S64x64, .f32⟩
  | .hbm, ⟨20, _⟩ => ⟨S_, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x1, .i32⟩
  | .hbm, ⟨26, _⟩ => ⟨S1x64, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S_, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S_, .f32⟩
  | .hbm, ⟨38, _⟩ => ⟨S64x64, .f32⟩
  | .hbm, ⟨39, _⟩ => ⟨S64x64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_cst_5 : Ref sig .tc := ⟨.hbm, 36, rfl⟩
abbrev main_call2_v0 : Ref sig .tc := ⟨.hbm, 37, rfl⟩
abbrev main_call2_v1 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_call3_cst : Ref sig .tc := ⟨.hbm, 46, rfl⟩
abbrev main_call3_v0 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S64x2048_S1x64x2048_1_2 : S64x2048.BroadcastsInDim S1x64x2048 (![1, 2] : Fin 2 → Fin S1x64x2048.rank)
  bcast_S64x2048_S64x1x2048_0_2 : S64x2048.BroadcastsInDim S64x1x2048 (![0, 2] : Fin 2 → Fin S64x1x2048.rank)
  bcast_S1x64x2048_S64x64x2048_0_1_2 : S1x64x2048.BroadcastsInDim S64x64x2048 (![0, 1, 2] : Fin 3 → Fin S64x64x2048.rank)
  bcast_S64x1x2048_S64x64x2048_0_1_2 : S64x1x2048.BroadcastsInDim S64x64x2048 (![0, 1, 2] : Fin 3 → Fin S64x64x2048.rank)
  reducesTo_S64x64x2048_S64x64_d2 : S64x64x2048.ReducesTo [2] S64x64
  h_S_ : 0 < S_.numel
  bcast_S_S64x64 : S_.BroadcastsInDim S64x64 (![] : Fin 0 → Fin S64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S64_d1 : S64x64.ReducesTo [1] S64
  bcast_S_S64 : S_.BroadcastsInDim S64 (![] : Fin 0 → Fin S64.rank)
  reducesTo_S64_S_d0 : S64.ReducesTo [0] S_
  gather_S64x64x6_S2048x1_S64x64x2048_01_2_n_n_2_1_64641_wf : GatherDims.WF S64x64x6 S2048x1 S64x64x2048 [0, 1] [2] [] [2] [] 1 ![64, 64, 1]

variable [Facts₀]

def gather_S64x64x6_S2048x1_S64x64x2048_01_2_n_n_2_1_64641 : GatherDims S64x64x6 S2048x1 S64x64x2048 where
  offsetDims := [0, 1]
  collapsedSliceDims := [2]
  operandBatchingDims := []
  startIndicesBatchingDims := []
  startIndexMap := [2]
  indexVectorDim := 1
  sliceSizes := ![64, 64, 1]
  wf := gather_S64x64x6_S2048x1_S64x64x2048_01_2_n_n_2_1_64641_wf

class Facts : Prop extends Facts₀ where

variable [Facts]
-- ==== Proof.KerRun.lean ====
/-
  The kernel program's run, read back as a value.

  The program slices the 64 × 2048 sample array into its six feature groups (five of 341 columns, one of 343),
  takes the six 64 × 64 weight slabs out of the weight array, reshapes the labels to a column, launches one
  kernel on a grid of a single point whose fourteen windows are each the whole of its array, and reshapes the
  kernel's 1 × 1 result to a scalar. So every input block of the one grid point is the whole array the host
  operations prepared, the output array after the run is what the body leaves of those thirteen arrays
  (`kernelOut`), and the program's result is that 1 × 1 array read as a scalar.
-/
import proofs.«157513_j23716809408617_1_alg».proof.Proof.Gen.KernelIdeal.Frame
import Idealize.ShloMosaic.Lib.Pipeline.Value
import Idealize.ShloMosaic.Lib.StableHlo.Run

set_option maxRecDepth 16384

noncomputable section

namespace Cert.KernelIdeal.KerRun

open Idealize.ShloMosaic Idealize.ShloMosaic.TcCoe Idealize.SL.Sem Idealize.ShloMosaic.StableHlo
open Cert.KernelIdeal Cert.KernelIdeal.Gen

variable {F : FTy → Type} [FloatOps F]

/-- What the kernel body leaves in its 1 × 1 output from the three argument arrays: the body's result of the six
    column groups of the samples, the six weight slabs and the label column. -/
def kernelOut (X : FVec F S64x2048 .f32) (T : IVec S64 32) (A : FVec F S64x64x6 .f32) : Vec F S1x1 .f32 :=
  Gen.out0_13 (extractStridedSlice S64x341 ![0, 0] X Gen.slices_S64x2048_S64x341_0_0) (extractStridedSlice S64x341 ![0, 341] X Gen.slices_S64x2048_S64x341_0_341) (extractStridedSlice S64x341 ![0, 682] X Gen.slices_S64x2048_S64x341_0_682) (extractStridedSlice S64x341 ![0, 1023] X Gen.slices_S64x2048_S64x341_0_1023) (extractStridedSlice S64x341 ![0, 1364] X Gen.slices_S64x2048_S64x341_0_1364) (extractStridedSlice S64x343 ![0, 1705] X Gen.slices_S64x2048_S64x343_0_1705)
    (shapeCast S64x64 (extractStridedSlice S64x64x1 ![0, 0, 0] A Gen.slices_S64x64x6_S64x64x1_0_0_0) Gen.shapeCasts_S64x64x1_S64x64) (shapeCast S64x64 (extractStridedSlice S64x64x1 ![0, 0, 1] A Gen.slices_S64x64x6_S64x64x1_0_0_1) Gen.shapeCasts_S64x64x1_S64x64) (shapeCast S64x64 (extractStridedSlice S64x64x1 ![0, 0, 2] A Gen.slices_S64x64x6_S64x64x1_0_0_2) Gen.shapeCasts_S64x64x1_S64x64) (shapeCast S64x64 (extractStridedSlice S64x64x1 ![0, 0, 3] A Gen.slices_S64x64x6_S64x64x1_0_0_3) Gen.shapeCasts_S64x64x1_S64x64) (shapeCast S64x64 (extractStridedSlice S64x64x1 ![0, 0, 4] A Gen.slices_S64x64x6_S64x64x1_0_0_4) Gen.shapeCasts_S64x64x1_S64x64) (shapeCast S64x64 (extractStridedSlice S64x64x1 ![0, 0, 5] A Gen.slices_S64x64x6_S64x64x1_0_0_5) Gen.shapeCasts_S64x64x1_S64x64)
    (shapeCast S64x1 T Gen.shapeCasts_S64_S64x1)

variable (m : (ℓ : Loc nD τ sig) → Buf (Elt F) ℓ) (ρ : Dev nD → PrngReg)

/-- Every window's block index is (0, 0) at every point of the grid. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-! ## Each input block is the whole of its array -/

theorem iblk0 (c : Dev nD) (t : Fin cfg0.N) : (iblk m c 0 t : S64x341.Idx → Elt F .f32) = V m c main_v0 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v0 (((cfg0.win 0).blk t).view.emb j) = V m c main_v0 j
  refine congrArg _ (funext fun a => Fin.ext ?_)
  match a with
  | ⟨0, _⟩ => show win0_0.index t (0 : Fin 2) * 64 + 1 * (j 0).val = (j 0).val; omega
  | ⟨1, _⟩ => show win0_0.index t (1 : Fin 2) * 341 + 1 * (j 1).val = (j 1).val; omega

theorem iblk1 (c : Dev nD) (t : Fin cfg0.N) : (iblk m c 1 t : S64x341.Idx → Elt F .f32) = V m c main_v1 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v1 (((cfg0.win 1).blk t).view.emb j) = V m c main_v1 j
  refine congrArg _ (funext fun a => Fin.ext ?_)
  match a with
  | ⟨0, _⟩ => show win0_1.index t (0 : Fin 2) * 64 + 1 * (j 0).val = (j 0).val; omega
  | ⟨1, _⟩ => show win0_1.index t (1 : Fin 2) * 341 + 1 * (j 1).val = (j 1).val; omega

theorem iblk2 (c : Dev nD) (t : Fin cfg0.N) : (iblk m c 2 t : S64x341.Idx → Elt F .f32) = V m c main_v2 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v2 (((cfg0.win 2).blk t).view.emb j) = V m c main_v2 j
  refine congrArg _ (funext fun a => Fin.ext ?_)
  match a with
  | ⟨0, _⟩ => show win0_2.index t (0 : Fin 2) * 64 + 1 * (j 0).val = (j 0).val; omega
  | ⟨1, _⟩ => show win0_2.index t (1 : Fin 2) * 341 + 1 * (j 1).val = (j 1).val; omega

theorem iblk3 (c : Dev nD) (t : Fin cfg0.N) : (iblk m c 3 t : S64x341.Idx → Elt F .f32) = V m c main_v3 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v3 (((cfg0.win 3).blk t).view.emb j) = V m c main_v3 j
  refine congrArg _ (funext fun a => Fin.ext ?_)
  match a with
  | ⟨0, _⟩ => show win0_3.index t (0 : Fin 2) * 64 + 1 * (j 0).val = (j 0).val; omega
  | ⟨1, _⟩ => show win0_3.index t (1 : Fin 2) * 341 + 1 * (j 1).val = (j 1).val; omega

theorem iblk4 (c : Dev nD) (t : Fin cfg0.N) : (iblk m c 4 t : S64x341.Idx → Elt F .f32) = V m c main_v4 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v4 (((cfg0.win 4).blk t).view.emb j) = V m c main_v4 j
  refine congrArg _ (funext fun a => Fin.ext ?_)
  match a with
  | ⟨0, _⟩ => show win0_4.index t (0 : Fin 2) * 64 + 1 * (j 0).val = (j 0).val; omega
  | ⟨1, _⟩ => show win0_4.index t (1 : Fin 2) * 341 + 1 * (j 1).val = (j 1).val; omega

theorem iblk5 (c : Dev nD) (t : Fin cfg0.N) : (iblk m c 5 t : S64x343.Idx → Elt F .f32) = V m c main_v5 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v5 (((cfg0.win 5).blk t).view.emb j) = V m c main_v5 j
  refine congrArg _ (funext fun a => Fin.ext ?_)
  match a with
  | ⟨0, _⟩ => show win0_5.index t (0 : Fin 2) * 64 + 1 * (j 0).val = (j 0).val; omega
  | ⟨1, _⟩ => show win0_5.index t (1 : Fin 2) * 343 + 1 * (j 1).val = (j 1).val; omega

theorem iblk6 (c : Dev nD) (t : Fin cfg0.N) : (iblk m c 6 t : S64x64.Idx → Elt F .f32) = V m c main_v7 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v7 (((cfg0.win 6).blk t).view.emb j) = V m c main_v7 j
  refine congrArg _ (funext fun a => Fin.ext ?_)
  match a with
  | ⟨0, _⟩ => show win0_6.index t (0 : Fin 2) * 64 + 1 * (j 0).val = (j 0).val; omega
  | ⟨1, _⟩ => show win0_6.index t (1 : Fin 2) * 64 + 1 * (j 1).val = (j 1).val; omega

theorem iblk7 (c : Dev nD) (t : Fin cfg0.N) : (iblk m c 7 t : S64x64.Idx → Elt F .f32) = V m c main_v9 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v9 (((cfg0.win 7).blk t).view.emb j) = V m c main_v9 j
  refine congrArg _ (funext fun a => Fin.ext ?_)
  match a with
  | ⟨0, _⟩ => show win0_7.index t (0 : Fin 2) * 64 + 1 * (j 0).val = (j 0).val; omega
  | ⟨1, _⟩ => show win0_7.index t (1 : Fin 2) * 64 + 1 * (j 1).val = (j 1).val; omega

theorem iblk8 (c : Dev nD) (t : Fin cfg0.N) : (iblk m c 8 t : S64x64.Idx → Elt F .f32) = V m c main_v11 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v11 (((cfg0.win 8).blk t).view.emb j) = V m c main_v11 j
  refine congrArg _ (funext fun a => Fin.ext ?_)
  match a with
  | ⟨0, _⟩ => show win0_8.index t (0 : Fin 2) * 64 + 1 * (j 0).val = (j 0).val; omega
  | ⟨1, _⟩ => show win0_8.index t (1 : Fin 2) * 64 + 1 * (j 1).val = (j 1).val; omega

theorem iblk9 (c : Dev nD) (t : Fin cfg0.N) : (iblk m c 9 t : S64x64.Idx → Elt F .f32) = V m c main_v13 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v13 (((cfg0.win 9).blk t).view.emb j) = V m c main_v13 j
  refine congrArg _ (funext fun a => Fin.ext ?_)
  match a with
  | ⟨0, _⟩ => show win0_9.index t (0 : Fin 2) * 64 + 1 * (j 0).val = (j 0).val; omega
  | ⟨1, _⟩ => show win0_9.index t (1 : Fin 2) * 64 + 1 * (j 1).val = (j 1).val; omega

theorem iblk10 (c : Dev nD) (t : Fin cfg0.N) : (iblk m c 10 t : S64x64.Idx → Elt F .f32) = V m c main_v15 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v15 (((cfg0.win 10).blk t).view.emb j) = V m c main_v15 j
  refine congrArg _ (funext fun a => Fin.ext ?_)
  match a with
  | ⟨0, _⟩ => show win0_10.index t (0 : Fin 2) * 64 + 1 * (j 0).val = (j 0).val; omega
  | ⟨1, _⟩ => show win0_10.index t (1 : Fin 2) * 64 + 1 * (j 1).val = (j 1).val; omega

theorem iblk11 (c : Dev nD) (t : Fin cfg0.N) : (iblk m c 11 t : S64x64.Idx → Elt F .f32) = V m c main_v17 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v17 (((cfg0.win 11).blk t).view.emb j) = V m c main_v17 j
  refine congrArg _ (funext fun a => Fin.ext ?_)
  match a with
  | ⟨0, _⟩ => show win0_11.index t (0 : Fin 2) * 64 + 1 * (j 0).val = (j 0).val; omega
  | ⟨1, _⟩ => show win0_11.index t (1 : Fin 2) * 64 + 1 * (j 1).val = (j 1).val; omega

theorem iblk12 (c : Dev nD) (t : Fin cfg0.N) : (iblk m c 12 t : S64x1.Idx → Elt F .i32) = V m c main_v18 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  funext j
  show V m c main_v18 (((cfg0.win 12).blk t).view.emb j) = V m c main_v18 j
  refine congrArg _ (funext fun a => Fin.ext ?_)
  match a with
  | ⟨0, _⟩ => show win0_12.index t (0 : Fin 2) * 64 + 1 * (j 0).val = (j 0).val; omega
  | ⟨1, _⟩ => show win0_12.index t (1 : Fin 2) * 1 + 1 * (j 1).val = (j 1).val; omega

/-! ## The arrays the host operations prepare, as functions of the arguments -/

theorem v_x0 (c : Dev nD) : (V m c main_v0 : S64x341.Idx → Elt F .f32) = extractStridedSlice S64x341 ![0, 0] (m ((c : Thread nD τ).loc main_arg0)) Gen.slices_S64x2048_S64x341_0_0 := by
  dsimp only [Gen.V, Gen.V0]
  simp only [Gen.hostOps0, List.flatten_cons, List.flatten_nil, List.append_nil, List.cons_append, List.nil_append]
  after_results

theorem v_x1 (c : Dev nD) : (V m c main_v1 : S64x341.Idx → Elt F .f32) = extractStridedSlice S64x341 ![0, 341] (m ((c : Thread nD τ).loc main_arg0)) Gen.slices_S64x2048_S64x341_0_341 := by
  dsimp only [Gen.V, Gen.V0]
  simp only [Gen.hostOps0, List.flatten_cons, List.flatten_nil, List.append_nil, List.cons_append, List.nil_append]
  after_results

theorem v_x2 (c : Dev nD) : (V m c main_v2 : S64x341.Idx → Elt F .f32) = extractStridedSlice S64x341 ![0, 682] (m ((c : Thread nD τ).loc main_arg0)) Gen.slices_S64x2048_S64x341_0_682 := by
  dsimp only [Gen.V, Gen.V0]
  simp only [Gen.hostOps0, List.flatten_cons, List.flatten_nil, List.append_nil, List.cons_append, List.nil_append]
  after_results

theorem v_x3 (c : Dev nD) : (V m c main_v3 : S64x341.Idx → Elt F .f32) = extractStridedSlice S64x341 ![0, 1023] (m ((c : Thread nD τ).loc main_arg0)) Gen.slices_S64x2048_S64x341_0_1023 := by
  dsimp only [Gen.V, Gen.V0]
  simp only [Gen.hostOps0, List.flatten_cons, List.flatten_nil, List.append_nil, List.cons_append, List.nil_append]
  after_results

theorem v_x4 (c : Dev nD) : (V m c main_v4 : S64x341.Idx → Elt F .f32) = extractStridedSlice S64x341 ![0, 1364] (m ((c : Thread nD τ).loc main_arg0)) Gen.slices_S64x2048_S64x341_0_1364 := by
  dsimp only [Gen.V, Gen.V0]
  simp only [Gen.hostOps0, List.flatten_cons, List.flatten_nil, List.append_nil, List.cons_append, List.nil_append]
  after_results

theorem v_x5 (c : Dev nD) : (V m c main_v5 : S64x343.Idx → Elt F .f32) = extractStridedSlice S64x343 ![0, 1705] (m ((c : Thread nD τ).loc main_arg0)) Gen.slices_S64x2048_S64x343_0_1705 := by
  dsimp only [Gen.V, Gen.V0]
  simp only [Gen.hostOps0, List.flatten_cons, List.flatten_nil, List.append_nil, List.cons_append, List.nil_append]
  after_results
theorem v_a0 (c : Dev nD) : (V m c main_v7 : S64x64.Idx → Elt F .f32) = shapeCast S64x64 (extractStridedSlice S64x64x1 ![0, 0, 0] (m ((c : Thread nD τ).loc main_arg2)) Gen.slices_S64x64x6_S64x64x1_0_0_0) Gen.shapeCasts_S64x64x1_S64x64 := by
  dsimp only [Gen.V, Gen.V0]
  simp only [Gen.hostOps0, List.flatten_cons, List.flatten_nil, List.append_nil, List.cons_append, List.nil_append]
  after_results
  rfl

theorem v_a1 (c : Dev nD) : (V m c main_v9 : S64x64.Idx → Elt F .f32) = shapeCast S64x64 (extractStridedSlice S64x64x1 ![0, 0, 1] (m ((c : Thread nD τ).loc main_arg2)) Gen.slices_S64x64x6_S64x64x1_0_0_1) Gen.shapeCasts_S64x64x1_S64x64 := by
  dsimp only [Gen.V, Gen.V0]
  simp only [Gen.hostOps0, List.flatten_cons, List.flatten_nil, List.append_nil, List.cons_append, List.nil_append]
  after_results
  rfl

theorem v_a2 (c : Dev nD) : (V m c main_v11 : S64x64.Idx → Elt F .f32) = shapeCast S64x64 (extractStridedSlice S64x64x1 ![0, 0, 2] (m ((c : Thread nD τ).loc main_arg2)) Gen.slices_S64x64x6_S64x64x1_0_0_2) Gen.shapeCasts_S64x64x1_S64x64 := by
  dsimp only [Gen.V, Gen.V0]
  simp only [Gen.hostOps0, List.flatten_cons, List.flatten_nil, List.append_nil, List.cons_append, List.nil_append]
  after_results
  rfl

theorem v_a3 (c : Dev nD) : (V m c main_v13 : S64x64.Idx → Elt F .f32) = shapeCast S64x64 (extractStridedSlice S64x64x1 ![0, 0, 3] (m ((c : Thread nD τ).loc main_arg2)) Gen.slices_S64x64x6_S64x64x1_0_0_3) Gen.shapeCasts_S64x64x1_S64x64 := by
  dsimp only [Gen.V, Gen.V0]
  simp only [Gen.hostOps0, List.flatten_cons, List.flatten_nil, List.append_nil, List.cons_append, List.nil_append]
  after_results
  rfl

theorem v_a4 (c : Dev nD) : (V m c main_v15 : S64x64.Idx → Elt F .f32) = shapeCast S64x64 (extractStridedSlice S64x64x1 ![0, 0, 4] (m ((c : Thread nD τ).loc main_arg2)) Gen.slices_S64x64x6_S64x64x1_0_0_4) Gen.shapeCasts_S64x64x1_S64x64 := by
  dsimp only [Gen.V, Gen.V0]
  simp only [Gen.hostOps0, List.flatten_cons, List.flatten_nil, List.append_nil, List.cons_append, List.nil_append]
  after_results
  rfl

theorem v_a5 (c : Dev nD) : (V m c main_v17 : S64x64.Idx → Elt F .f32) = shapeCast S64x64 (extractStridedSlice S64x64x1 ![0, 0, 5] (m ((c : Thread nD τ).loc main_arg2)) Gen.slices_S64x64x6_S64x64x1_0_0_5) Gen.shapeCasts_S64x64x1_S64x64 := by
  dsimp only [Gen.V, Gen.V0]
  simp only [Gen.hostOps0, List.flatten_cons, List.flatten_nil, List.append_nil, List.cons_append, List.nil_append]
  after_results
  rfl
theorem v_t (c : Dev nD) : (V m c main_v18 : S64x1.Idx → Elt F .i32) = shapeCast S64x1 (m ((c : Thread nD τ).loc main_arg1)) Gen.shapeCasts_S64_S64x1 := by
  dsimp only [Gen.V, Gen.V0]
  simp only [Gen.hostOps0, List.flatten_cons, List.flatten_nil, List.append_nil, List.cons_append, List.nil_append]
  after_results
  rfl

/-! ## The output array after the run -/

/-- What the one point leaves in the output's buffer: the body's result of the prepared arrays. -/
def outArr (c : Dev nD) : S1x1.Idx → Elt F .f32 :=
  Gen.out0_13 (V m c main_v0) (V m c main_v1) (V m c main_v2) (V m c main_v3) (V m c main_v4) (V m c main_v5) (V m c main_v7) (V m c main_v9) (V m c main_v11) (V m c main_v13) (V m c main_v15) (V m c main_v17) (V m c main_v18)

theorem after13 (c : Dev nD) (t : Fin cfg0.N) : (dats m 0 c).after 13 t = outArr m c := by
  rw [after0_13, iblk0, iblk1, iblk2, iblk3, iblk4, iblk5, iblk6, iblk7, iblk8, iblk9, iblk10, iblk11, iblk12]
  rfl

/-- The output's block at any point is the whole 1 × 1 array. -/
theorem emb13 (t : Fin cfg0.N) (j : S1x1.Idx) : (((cfg0.win 13).blk t).view.emb j : S1x1.Idx) = j := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1⟩ := idx_facts t
  refine funext fun a => Fin.ext ?_
  match a with
  | ⟨0, _⟩ => show win0_13.index t (0 : Fin 2) * 1 + 1 * (j 0).val = (j 0).val; omega
  | ⟨1, _⟩ => show win0_13.index t (1 : Fin 2) * 1 + 1 * (j 1).val = (j 1).val; omega

/-- What a point writes back is the output array's function read through the point's block. -/
theorem flushed_eq (c : Dev nD) (t : Fin cfg0.N) :
    (dats m 0 c).flushed 13 t = ((cfg0.win 13).blk t).view.read (Elt F) (outArr m c) := by
  show (cfg0.win 13).cut (grid0.coords t) ((dats m 0 c).after 13 t) = _
  rw [after13]
  funext j
  show outArr m c j = outArr m c (((cfg0.win 13).blk t).view.emb j)
  rw [emb13]

/-- The one point's block covers the output array. -/
theorem cover13 (i : S1x1.Idx) : ∃ t : Fin cfg0.N, (cfg0.win 13).flush t = true ∧ i ∈ ((cfg0.win 13).blk t).view.set := by
  refine ⟨t0_0, flush0_13 t0_0, ?_⟩
  have h := ((cfg0.win 13).blk t0_0).view.emb_mem_set i
  rw [emb13] at h
  exact h

theorem final (c : Dev nD) : (dats m 0 c).arrAt 13 cfg0.N = outArr m c :=
  (dats m 0 c).arrAt_eq_of_cover 13 (outArr m c) (fun t _ => flushed_eq m c t) cover13

/-- The prepared arrays are the slices and reshapes of the arguments: the output array is `kernelOut` of them. -/
theorem outArr_eq (c : Dev nD) : outArr m c
    = kernelOut (m ((c : Thread nD τ).loc main_arg0)) (m ((c : Thread nD τ).loc main_arg1)) (m ((c : Thread nD τ).loc main_arg2)) := by
  unfold outArr kernelOut
  rw [v_x0, v_x1, v_x2, v_x3, v_x4, v_x5, v_a0, v_a1, v_a2, v_a3, v_a4, v_a5, v_t]

/-- The program's result: the reshape after the region applied to the output array. -/
theorem tail_eq (c : Dev nD) : Pipeline.afterTail₀ cfgs (dats m) 0 (V0 m) [hostOps1] c main_v20
    = shapeCast S_ (kernelOut (m ((c : Thread nD τ).loc main_arg0)) (m ((c : Thread nD τ).loc main_arg1)) (m ((c : Thread nD τ).loc main_arg2))) Gen.shapeCasts_S1x1_S_ := by
  unfold Pipeline.afterTail₀
  show StableHlo.after hostOps1 _ (Proc.devRef .tc main_v20) = _
  after_results
  have e : Pipeline.withArrays (cfgs 0).spec c (V0 m c) (fun w => (dats m 0 c).arrAt w (cfgs 0).N) (Proc.devRef .tc main_v19)
      = (dats m 0 c).arrAt 13 cfg0.N :=
    Pipeline.withArrays_arr spec0 launch0.win.arr_inj c (V0 m c) (fun w => (dats m 0 c).arrAt w cfg0.N) 13
  rw [e, final, outArr_eq]
  rfl

/-! ## The run -/

/-- Every weakly fair execution of the program terminates with its result at `kernelOut` of the arguments read as a
    scalar, and the arguments unchanged. -/
theorem run : θ_run defs (onTc (τ := τ) (main (F := F))) ⟨m, fun _ => 0, ρ⟩ fun r => ∀ c : Dev nD,
      r.2.mem ((c.tc : Thread nD τ).loc main_v20)
          = shapeCast S_ (kernelOut (m ((c : Thread nD τ).loc main_arg0)) (m ((c : Thread nD τ).loc main_arg1)) (m ((c : Thread nD τ).loc main_arg2))) Gen.shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v20 (Pipeline.mem_restRefs_of main_v20 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KerRun

end
-- ==== Proof.KerLayout.lean ====
/-
  Small facts about re-laid arrays, each read at an index: a vector of 64 entries viewed as a column, a column
  transposed to a row, a column repeated along the rows, a 64 × 64 × 1 slab viewed as a matrix, a single entry
  viewed as a 1 × 1 matrix and a 1 × 1 matrix viewed as a scalar. In each case the entry read is the operand's entry
  with the same row-major position.
-/
import Idealize.ShloMosaic.Lib.Pipeline.Value
import Idealize.ShloMosaic.Lib.ValueIdx
import Idealize.ShloMosaic.Lib.ValueLayout

noncomputable section

namespace Cert.TripletLayout

open Idealize.ShloMosaic Idealize.ShloMosaic.ValueIdx

variable {α : Type}

/-- A vector of 64 entries viewed as a 64 × 1 column: row `i` holds entry `i`. -/
theorem col_apply (v : (⟨1, ![64]⟩ : Shape).Idx → α) (h : (⟨1, ![64]⟩ : Shape).ShapeCasts ⟨2, ![64, 1]⟩)
    (i : Fin 64) (z : Fin 1) : shapeCast ⟨2, ![64, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- A 64 × 1 column transposed to a 1 × 64 row: column `j` holds row `j` of the column. -/
theorem colT_apply (v : (⟨2, ![64, 1]⟩ : Shape).Idx → α) (h : (⟨2, ![64, 1]⟩ : Shape).Transposes [1, 0] ⟨2, ![1, 64]⟩)
    (z : Fin 1) (j : Fin 64) : transpose ⟨2, ![1, 64]⟩ [1, 0] v h (ix2 z j) = v (ix2 j (0 : Fin 1)) := by
  refine transpose_apply _ v h (ix2 z j) (ix2 j (0 : Fin 1)) fun c => ?_
  match c with
  | ⟨0, _⟩ => show (0 : Fin 1).val = z.val; have := z.isLt; omega
  | ⟨1, _⟩ => rfl

/-- A 64 × 1 column repeated along 64 columns: entry (i, j) is the column's row `i`. -/
theorem bcol_apply (v : (⟨2, ![64, 1]⟩ : Shape).Idx → α) (h : (⟨2, ![64, 1]⟩ : Shape).Broadcasts ⟨2, ![64, 64]⟩)
    (i j : Fin 64) : broadcastTo ⟨2, ![64, 64]⟩ v h (ix2 i j) = v (ix2 i (0 : Fin 1)) := by
  refine broadcastTo_apply v h (ix2 i j) (ix2 i (0 : Fin 1)) fun ax => ?_
  match ax with
  | ⟨0, _⟩ => rfl
  | ⟨1, _⟩ => rfl

/-- A 64 × 64 × 1 slab viewed as a 64 × 64 matrix. -/
theorem slab_apply (v : (⟨3, ![64, 64, 1]⟩ : Shape).Idx → α) (h : (⟨3, ![64, 64, 1]⟩ : Shape).ShapeCasts ⟨2, ![64, 64]⟩)
    (i j : Fin 64) : shapeCast ⟨2, ![64, 64]⟩ v h (ix2 i j) = v (ix3 i j (0 : Fin 1)) := by
  refine shapeCast_apply v h (ix2 i j) (ix3 i j (0 : Fin 1)) ?_
  rw [Shape.rowMajor_val_three, Shape.rowMajor_val_two]
  show (i.val * 64 + j.val) * 1 + 0 = i.val * 64 + j.val
  omega

/-- A single entry viewed as a 1 × 1 matrix. -/
theorem one_apply (v : (⟨1, ![1]⟩ : Shape).Idx → α) (h : (⟨1, ![1]⟩ : Shape).ShapeCasts ⟨2, ![1, 1]⟩)
    (y z : Fin 1) : shapeCast ⟨2, ![1, 1]⟩ v h (ix2 y z) = v (ix1 (0 : Fin 1)) := by
  refine shapeCast_apply v h (ix2 y z) (ix1 (0 : Fin 1)) ?_
  rw [Shape.rowMajor_val_one, Shape.rowMajor_val_two]
  show 0 = y.val * 1 + z.val
  have := y.isLt; have := z.isLt; omega

/-- A 1 × 1 matrix viewed as a scalar. -/
theorem scalar_apply (v : (⟨2, ![1, 1]⟩ : Shape).Idx → α) (h : (⟨2, ![1, 1]⟩ : Shape).ShapeCasts ⟨0, ![]⟩) :
    shapeCast ⟨0, ![]⟩ v h ix0 = v (ix2 (0 : Fin 1) (0 : Fin 1)) := by
  refine shapeCast_apply v h ix0 (ix2 (0 : Fin 1) (0 : Fin 1)) ?_
  rw [Shape.rowMajor_val_two]
  show 0 * 1 + 0 = ((⟨0, ![]⟩ : Shape).rowMajor ix0).val
  have := ((⟨0, ![]⟩ : Shape).rowMajor ix0).isLt
  have e : (⟨0, ![]⟩ : Shape).numel = 1 := by decide
  omega

end Cert.TripletLayout

end
-- ==== Proof.KerGroup.lean ====
/-
  One feature group inside the kernel body, read at the ideal values. For a 64 × n block `v` of samples
  restricted to a group of n features (n = 341 for the first five groups, 343 for the last) the body forms the
  matrix of `|v i|² + |v j|²` — row sums of squares, viewed as a column, repeated along the rows, plus the
  same column transposed and repeated along the columns — and the Gram matrix `∑ k, v i k * v j k`, the block
  times its own transpose.
-/
import proofs.«157513_j23716809408617_1_alg».proof.Proof.Gen.KernelIdeal
import proofs.«157513_j23716809408617_1_alg».proof.Proof.KerLayout
import Idealize.ShloMosaic.PureOps.Ideal.Laws

noncomputable section

namespace Cert.KernelIdeal.KerGroup

open Idealize.ShloMosaic Idealize.ShloMosaic.ValueIdx Cert.KernelIdeal Cert.TripletLayout

/-! ## A group of 341 features -/

/-- The row sums of squares of a 64 × 341 block, at row `i`. -/
theorem rowSq341 (v : FVec Ideal S64x341 .f32) (hφ : FKind.Formats .f32)
    (hacc : (0x00000000#32 : BitVec 32) = 0x00000000#32) (i : Fin 64) :
    multiReduction .add [1] S64 (mulf v v) 0x00000000#32 Gen.reduces_S64x341_S64 hφ hacc (ix1 i)
      = ∑ k : Fin 341, v (ix2 i k) * v (ix2 i k) :=
  (Ideal.multiReduction_add_single (mulf v v) 0x00000000#32 Gen.reduces_S64x341_S64 hφ hacc (ix1 i)).trans
    (Finset.sum_congr rfl fun k _ => by
      have e : Gen.reduces_S64x341_S64.lift (ix1 i) k = ix2 i k := funext fun a => Fin.ext (by
        match a with
        | ⟨0, _⟩ => rfl
        | ⟨1, _⟩ => rfl)
      rw [e]
      rfl)

/-- The sum `|v i|² + |v j|²` as the kernel forms it: the column of row sums of squares repeated along the
    rows, plus its transpose repeated along the columns. -/
theorem normPair341 (v : FVec Ideal S64x341 .f32) (hφ : FKind.Formats .f32)
    (hacc : (0x00000000#32 : BitVec 32) = 0x00000000#32) (i j : Fin 64) :
    addf
      (broadcastTo S64x64 (shapeCast S64x1 (multiReduction .add [1] S64 (mulf v v) 0x00000000#32 Gen.reduces_S64x341_S64 hφ hacc) Gen.shapeCasts_S64_S64x1) Gen.broadcasts_S64x1_S64x64)
      (broadcastTo S64x64 (transpose S1x64 [1, 0] (shapeCast S64x1 (multiReduction .add [1] S64 (mulf v v) 0x00000000#32 Gen.reduces_S64x341_S64 hφ hacc) Gen.shapeCasts_S64_S64x1) Gen.transposes_S64x1_p1_0_S1x64) Gen.broadcasts_S1x64_S64x64)
      (ix2 i j)
      = (∑ k : Fin 341, v (ix2 i k) * v (ix2 i k)) + ∑ k : Fin 341, v (ix2 j k) * v (ix2 j k) := by
  rw [addf_apply]
  refine congrArg₂ (· + ·) ?_ ?_
  · refine (bcol_apply _ Gen.broadcasts_S64x1_S64x64 i j).trans ?_
    refine (col_apply _ Gen.shapeCasts_S64_S64x1 i 0).trans ?_
    exact rowSq341 v hφ hacc i
  · refine (broadcastTo_1b_ab_apply _ Gen.broadcasts_S1x64_S64x64 i j).trans ?_
    refine (colT_apply _ Gen.transposes_S64x1_p1_0_S1x64 0 j).trans ?_
    refine (col_apply _ Gen.shapeCasts_S64_S64x1 j 0).trans ?_
    exact rowSq341 v hφ hacc j

theorem lhs341_0 (i : S64x64.Idx) (q : dot_S64x341_S341x64_S64x64_1_0_0_1_n_n.contr.Idx) : (dot_S64x341_S341x64_S64x64_1_0_0_1_n_n.lhsIdx i q 0).val = (i 0).val := by
  unfold DotDims.lhsIdx
  rw [dif_neg (show ¬(0 : Fin S64x341.rank) ∈ dot_S64x341_S341x64_S64x64_1_0_0_1_n_n.lhsBatch by decide), dif_pos (show (0 : Fin S64x341.rank) ∈ dot_S64x341_S341x64_S64x64_1_0_0_1_n_n.lhsNonContracting by decide)]
  rfl
theorem lhs341_1 (i : S64x64.Idx) (q : dot_S64x341_S341x64_S64x64_1_0_0_1_n_n.contr.Idx) : (dot_S64x341_S341x64_S64x64_1_0_0_1_n_n.lhsIdx i q 1).val = (q ⟨0, by decide⟩).val :=
  dot_S64x341_S341x64_S64x64_1_0_0_1_n_n.lhsIdx_val_of_single rfl i q
theorem rhs341_0 (i : S64x64.Idx) (q : dot_S64x341_S341x64_S64x64_1_0_0_1_n_n.contr.Idx) : (dot_S64x341_S341x64_S64x64_1_0_0_1_n_n.rhsIdx i q 0).val = (q ⟨0, by decide⟩).val :=
  dot_S64x341_S341x64_S64x64_1_0_0_1_n_n.rhsIdx_val_of_single rfl i q
theorem rhs341_1 (i : S64x64.Idx) (q : dot_S64x341_S341x64_S64x64_1_0_0_1_n_n.contr.Idx) : (dot_S64x341_S341x64_S64x64_1_0_0_1_n_n.rhsIdx i q 1).val = (i 1).val := by
  unfold DotDims.rhsIdx
  rw [dif_neg (show ¬(1 : Fin S341x64.rank) ∈ dot_S64x341_S341x64_S64x64_1_0_0_1_n_n.rhsBatch by decide), dif_pos (show (1 : Fin S341x64.rank) ∈ dot_S64x341_S341x64_S64x64_1_0_0_1_n_n.rhsNonContracting by decide)]
  rfl

/-- The Gram matrix of a 64 × 341 block as the kernel forms it (the block times its transpose, accumulated into
    zero; the change of float format is the identity on extended reals): entry (i, j) is `∑ k, v i k * v j k`. -/
theorem gram341 (v : FVec Ideal S64x341 .f32) (i j : Fin 64) :
    matmul dot_S64x341_S341x64_S64x64_1_0_0_1_n_n none (truncf .bf16 v Gen.bitsLt_bf16_f32)
        (transpose S341x64 [1, 0] (truncf .bf16 v Gen.bitsLt_bf16_f32) Gen.transposes_S64x341_p1_0_S341x64)
        (constant S64x64 .f32 0x00000000#32) (ix2 i j)
      = ∑ k : Fin 341, v (ix2 i k) * v (ix2 j k) := by
  simp only [matmul]
  rw [Ideal.matmul_constant_zero_apply, ← Equiv.sum_comp (contrEquiv1 dot_S64x341_S341x64_S64x64_1_0_0_1_n_n 341 rfl rfl).symm]
  refine Finset.sum_congr rfl fun k _ => ?_
  have hk := contrEquiv1_symm_val dot_S64x341_S341x64_S64x64_1_0_0_1_n_n 341 rfl rfl k
  have el : dot_S64x341_S341x64_S64x64_1_0_0_1_n_n.lhsIdx (ix2 i j) ((contrEquiv1 dot_S64x341_S341x64_S64x64_1_0_0_1_n_n 341 rfl rfl).symm k) = ix2 i k := funext fun a => Fin.ext (by
    match a with
    | ⟨0, _⟩ => exact lhs341_0 _ _
    | ⟨1, _⟩ => exact (lhs341_1 _ _).trans hk)
  have er : dot_S64x341_S341x64_S64x64_1_0_0_1_n_n.rhsIdx (ix2 i j) ((contrEquiv1 dot_S64x341_S341x64_S64x64_1_0_0_1_n_n 341 rfl rfl).symm k) = ix2 k j := funext fun a => Fin.ext (by
    match a with
    | ⟨0, _⟩ => exact (rhs341_0 _ _).trans hk
    | ⟨1, _⟩ => exact rhs341_1 _ _)
  rw [el, er]
  exact congrArg (v (ix2 i k) * ·) (transpose_ix2_apply _ Gen.transposes_S64x341_p1_0_S341x64 k j)

/-- The matrix of `|v i|² + |v j|²` of a 64 × 341 block, as the kernel forms it. -/
def normMat341 (v : FVec Ideal S64x341 .f32) : FVec Ideal S64x64 .f32 :=
  addf
    (broadcastTo S64x64 (shapeCast S64x1 (multiReduction .add [1] S64 (mulf v v) 0x00000000#32 Gen.reduces_S64x341_S64 (.inl rfl) rfl) Gen.shapeCasts_S64_S64x1) Gen.broadcasts_S64x1_S64x64)
    (broadcastTo S64x64 (transpose S1x64 [1, 0] (shapeCast S64x1 (multiReduction .add [1] S64 (mulf v v) 0x00000000#32 Gen.reduces_S64x341_S64 (.inl rfl) rfl) Gen.shapeCasts_S64_S64x1) Gen.transposes_S64x1_p1_0_S1x64) Gen.broadcasts_S1x64_S64x64)

/-- The Gram matrix of a 64 × 341 block, as the kernel forms it. -/
def gramMat341 (v : FVec Ideal S64x341 .f32) : FVec Ideal S64x64 .f32 :=
  matmul dot_S64x341_S341x64_S64x64_1_0_0_1_n_n none (truncf .bf16 v Gen.bitsLt_bf16_f32)
    (transpose S341x64 [1, 0] (truncf .bf16 v Gen.bitsLt_bf16_f32) Gen.transposes_S64x341_p1_0_S341x64)
    (constant S64x64 .f32 0x00000000#32)

theorem normMat341_apply (v : FVec Ideal S64x341 .f32) (i j : Fin 64) :
    normMat341 v (ix2 i j) = (∑ k : Fin 341, v (ix2 i k) * v (ix2 i k)) + ∑ k : Fin 341, v (ix2 j k) * v (ix2 j k) :=
  normPair341 v (.inl rfl) rfl i j

theorem gramMat341_apply (v : FVec Ideal S64x341 .f32) (i j : Fin 64) :
    gramMat341 v (ix2 i j) = ∑ k : Fin 341, v (ix2 i k) * v (ix2 j k) :=
  gram341 v i j

/-! ## A group of 343 features -/

/-- The row sums of squares of a 64 × 343 block, at row `i`. -/
theorem rowSq343 (v : FVec Ideal S64x343 .f32) (hφ : FKind.Formats .f32)
    (hacc : (0x00000000#32 : BitVec 32) = 0x00000000#32) (i : Fin 64) :
    multiReduction .add [1] S64 (mulf v v) 0x00000000#32 Gen.reduces_S64x343_S64 hφ hacc (ix1 i)
      = ∑ k : Fin 343, v (ix2 i k) * v (ix2 i k) :=
  (Ideal.multiReduction_add_single (mulf v v) 0x00000000#32 Gen.reduces_S64x343_S64 hφ hacc (ix1 i)).trans
    (Finset.sum_congr rfl fun k _ => by
      have e : Gen.reduces_S64x343_S64.lift (ix1 i) k = ix2 i k := funext fun a => Fin.ext (by
        match a with
        | ⟨0, _⟩ => rfl
        | ⟨1, _⟩ => rfl)
      rw [e]
      rfl)

/-- The sum `|v i|² + |v j|²` as the kernel forms it: the column of row sums of squares repeated along the
    rows, plus its transpose repeated along the columns. -/
theorem normPair343 (v : FVec Ideal S64x343 .f32) (hφ : FKind.Formats .f32)
    (hacc : (0x00000000#32 : BitVec 32) = 0x00000000#32) (i j : Fin 64) :
    addf
      (broadcastTo S64x64 (shapeCast S64x1 (multiReduction .add [1] S64 (mulf v v) 0x00000000#32 Gen.reduces_S64x343_S64 hφ hacc) Gen.shapeCasts_S64_S64x1) Gen.broadcasts_S64x1_S64x64)
      (broadcastTo S64x64 (transpose S1x64 [1, 0] (shapeCast S64x1 (multiReduction .add [1] S64 (mulf v v) 0x00000000#32 Gen.reduces_S64x343_S64 hφ hacc) Gen.shapeCasts_S64_S64x1) Gen.transposes_S64x1_p1_0_S1x64) Gen.broadcasts_S1x64_S64x64)
      (ix2 i j)
      = (∑ k : Fin 343, v (ix2 i k) * v (ix2 i k)) + ∑ k : Fin 343, v (ix2 j k) * v (ix2 j k) := by
  rw [addf_apply]
  refine congrArg₂ (· + ·) ?_ ?_
  · refine (bcol_apply _ Gen.broadcasts_S64x1_S64x64 i j).trans ?_
    refine (col_apply _ Gen.shapeCasts_S64_S64x1 i 0).trans ?_
    exact rowSq343 v hφ hacc i
  · refine (broadcastTo_1b_ab_apply _ Gen.broadcasts_S1x64_S64x64 i j).trans ?_
    refine (colT_apply _ Gen.transposes_S64x1_p1_0_S1x64 0 j).trans ?_
    refine (col_apply _ Gen.shapeCasts_S64_S64x1 j 0).trans ?_
    exact rowSq343 v hφ hacc j

theorem lhs343_0 (i : S64x64.Idx) (q : dot_S64x343_S343x64_S64x64_1_0_0_1_n_n.contr.Idx) : (dot_S64x343_S343x64_S64x64_1_0_0_1_n_n.lhsIdx i q 0).val = (i 0).val := by
  unfold DotDims.lhsIdx
  rw [dif_neg (show ¬(0 : Fin S64x343.rank) ∈ dot_S64x343_S343x64_S64x64_1_0_0_1_n_n.lhsBatch by decide), dif_pos (show (0 : Fin S64x343.rank) ∈ dot_S64x343_S343x64_S64x64_1_0_0_1_n_n.lhsNonContracting by decide)]
  rfl
theorem lhs343_1 (i : S64x64.Idx) (q : dot_S64x343_S343x64_S64x64_1_0_0_1_n_n.contr.Idx) : (dot_S64x343_S343x64_S64x64_1_0_0_1_n_n.lhsIdx i q 1).val = (q ⟨0, by decide⟩).val :=
  dot_S64x343_S343x64_S64x64_1_0_0_1_n_n.lhsIdx_val_of_single rfl i q
theorem rhs343_0 (i : S64x64.Idx) (q : dot_S64x343_S343x64_S64x64_1_0_0_1_n_n.contr.Idx) : (dot_S64x343_S343x64_S64x64_1_0_0_1_n_n.rhsIdx i q 0).val = (q ⟨0, by decide⟩).val :=
  dot_S64x343_S343x64_S64x64_1_0_0_1_n_n.rhsIdx_val_of_single rfl i q
theorem rhs343_1 (i : S64x64.Idx) (q : dot_S64x343_S343x64_S64x64_1_0_0_1_n_n.contr.Idx) : (dot_S64x343_S343x64_S64x64_1_0_0_1_n_n.rhsIdx i q 1).val = (i 1).val := by
  unfold DotDims.rhsIdx
  rw [dif_neg (show ¬(1 : Fin S343x64.rank) ∈ dot_S64x343_S343x64_S64x64_1_0_0_1_n_n.rhsBatch by decide), dif_pos (show (1 : Fin S343x64.rank) ∈ dot_S64x343_S343x64_S64x64_1_0_0_1_n_n.rhsNonContracting by decide)]
  rfl

/-- The Gram matrix of a 64 × 343 block as the kernel forms it (the block times its transpose, accumulated into
    zero; the change of float format is the identity on extended reals): entry (i, j) is `∑ k, v i k * v j k`. -/
theorem gram343 (v : FVec Ideal S64x343 .f32) (i j : Fin 64) :
    matmul dot_S64x343_S343x64_S64x64_1_0_0_1_n_n none (truncf .bf16 v Gen.bitsLt_bf16_f32)
        (transpose S343x64 [1, 0] (truncf .bf16 v Gen.bitsLt_bf16_f32) Gen.transposes_S64x343_p1_0_S343x64)
        (constant S64x64 .f32 0x00000000#32) (ix2 i j)
      = ∑ k : Fin 343, v (ix2 i k) * v (ix2 j k) := by
  simp only [matmul]
  rw [Ideal.matmul_constant_zero_apply, ← Equiv.sum_comp (contrEquiv1 dot_S64x343_S343x64_S64x64_1_0_0_1_n_n 343 rfl rfl).symm]
  refine Finset.sum_congr rfl fun k _ => ?_
  have hk := contrEquiv1_symm_val dot_S64x343_S343x64_S64x64_1_0_0_1_n_n 343 rfl rfl k
  have el : dot_S64x343_S343x64_S64x64_1_0_0_1_n_n.lhsIdx (ix2 i j) ((contrEquiv1 dot_S64x343_S343x64_S64x64_1_0_0_1_n_n 343 rfl rfl).symm k) = ix2 i k := funext fun a => Fin.ext (by
    match a with
    | ⟨0, _⟩ => exact lhs343_0 _ _
    | ⟨1, _⟩ => exact (lhs343_1 _ _).trans hk)
  have er : dot_S64x343_S343x64_S64x64_1_0_0_1_n_n.rhsIdx (ix2 i j) ((contrEquiv1 dot_S64x343_S343x64_S64x64_1_0_0_1_n_n 343 rfl rfl).symm k) = ix2 k j := funext fun a => Fin.ext (by
    match a with
    | ⟨0, _⟩ => exact (rhs343_0 _ _).trans hk
    | ⟨1, _⟩ => exact rhs343_1 _ _)
  rw [el, er]
  exact congrArg (v (ix2 i k) * ·) (transpose_ix2_apply _ Gen.transposes_S64x343_p1_0_S343x64 k j)

/-- The matrix of `|v i|² + |v j|²` of a 64 × 343 block, as the kernel forms it. -/
def normMat343 (v : FVec Ideal S64x343 .f32) : FVec Ideal S64x64 .f32 :=
  addf
    (broadcastTo S64x64 (shapeCast S64x1 (multiReduction .add [1] S64 (mulf v v) 0x00000000#32 Gen.reduces_S64x343_S64 (.inl rfl) rfl) Gen.shapeCasts_S64_S64x1) Gen.broadcasts_S64x1_S64x64)
    (broadcastTo S64x64 (transpose S1x64 [1, 0] (shapeCast S64x1 (multiReduction .add [1] S64 (mulf v v) 0x00000000#32 Gen.reduces_S64x343_S64 (.inl rfl) rfl) Gen.shapeCasts_S64_S64x1) Gen.transposes_S64x1_p1_0_S1x64) Gen.broadcasts_S1x64_S64x64)

/-- The Gram matrix of a 64 × 343 block, as the kernel forms it. -/
def gramMat343 (v : FVec Ideal S64x343 .f32) : FVec Ideal S64x64 .f32 :=
  matmul dot_S64x343_S343x64_S64x64_1_0_0_1_n_n none (truncf .bf16 v Gen.bitsLt_bf16_f32)
    (transpose S343x64 [1, 0] (truncf .bf16 v Gen.bitsLt_bf16_f32) Gen.transposes_S64x343_p1_0_S343x64)
    (constant S64x64 .f32 0x00000000#32)

theorem normMat343_apply (v : FVec Ideal S64x343 .f32) (i j : Fin 64) :
    normMat343 v (ix2 i j) = (∑ k : Fin 343, v (ix2 i k) * v (ix2 i k)) + ∑ k : Fin 343, v (ix2 j k) * v (ix2 j k) :=
  normPair343 v (.inl rfl) rfl i j

theorem gramMat343_apply (v : FVec Ideal S64x343 .f32) (i j : Fin 64) :
    gramMat343 v (ix2 i j) = ∑ k : Fin 343, v (ix2 i k) * v (ix2 j k) :=
  gram343 v i j

/-! ## One group's share of the squared distance -/

/-- A group's share from its two matrices and its weight slab: the squared weight times
    `max (norms - 2 * Gram) 0`, entry by entry (`0x40000000` is the float 2). -/
def shareOf (w nm tg : FVec Ideal S64x64 .f32) : FVec Ideal S64x64 .f32 :=
  mulf (mulf w w) (maximumf (subf nm tg) (broadcast S64x64 (Scalar.ofBits .f32 0x00000000#32)))

theorem shareOf_apply (w nm tg : FVec Ideal S64x64 .f32) (i j : Fin 64) :
    shareOf w nm tg (ix2 i j) = (w (ix2 i j) * w (ix2 i j)) * max (nm (ix2 i j) - tg (ix2 i j)) 0 := by
  show (w (ix2 i j) * w (ix2 i j)) * max (nm (ix2 i j) - tg (ix2 i j)) (Ideal.ofBits .f32 0x00000000#32) = _
  rw [Ideal.ofBits_zero_f32]

/-- Twice a matrix, as the kernel forms it. -/
def twice (g : FVec Ideal S64x64 .f32) : FVec Ideal S64x64 .f32 :=
  mulf (broadcast S64x64 (Scalar.ofBits .f32 0x40000000#32)) g

theorem twice_apply (g : FVec Ideal S64x64 .f32) (i j : Fin 64) :
    twice g (ix2 i j) = Ideal.ofBits .f32 0x40000000#32 * g (ix2 i j) := rfl

end Cert.KernelIdeal.KerGroup

end
-- ==== Proof.Spec.lean ====
/-
  The mathematics both programs compute, stated once over plain index types.

  For 64 samples with 2048 features each (`x i k`), integer labels (`t i`) and six weights per ordered pair
  of samples (`a i j g`, one per feature group; the groups are the five runs of 341 consecutive features
  followed by one run of 343), the loss is the mean over the samples `i` of
  `max (hardest positive i - hardest negative i + margin) 0`, where the distance of a pair is
  `√(max (squared distance) ε)`, the hardest positive of `i` is the largest distance to a sample with the
  same label, and the hardest negative the smallest distance to a sample with another label.

  The squared distance is written in two ways. Feature by feature, as the reference computes it:
  `∑ k, (a i j (grp k) * (x j k - x i k))²`. Group by group, as the kernel computes it: for each group the
  squared weight times `max (|x i|² + |x j|² - 2 ⟨x i, x j⟩) 0` with norms and inner product restricted to the
  group's features. On finite inputs the two agree (Proof/Algebra.lean); everything after the squared
  distance is one function, `loss`, of it and of the label mask.
-/
import Idealize.ShloMosaic.PureOps.Ideal

noncomputable section

namespace Cert.TripletSpec

open Idealize.ShloMosaic

/-- The group of feature `k`: five groups of 341 features, then one of 343. -/
def grp (k : Fin 2048) : Fin 6 := ⟨min (k.val / 341) 5, by omega⟩

/-- The squared distance feature by feature. -/
def sqRef (x : Fin 64 → Fin 2048 → EReal) (a : Fin 64 → Fin 64 → Fin 6 → EReal) (i j : Fin 64) : EReal :=
  ∑ k : Fin 2048, (a i j (grp k) * (x j k - x i k)) * (a i j (grp k) * (x j k - x i k))

/-- The squared norm of sample `i` restricted to the `n` features from `s` on. -/
def nrm (x : Fin 64 → Fin 2048 → EReal) (s n : ℕ) (h : s + n ≤ 2048) (i : Fin 64) : EReal :=
  ∑ k : Fin n, x i ⟨s + k.val, by omega⟩ * x i ⟨s + k.val, by omega⟩

/-- The inner product of samples `i` and `j` restricted to the `n` features from `s` on. -/
def gram (x : Fin 64 → Fin 2048 → EReal) (s n : ℕ) (h : s + n ≤ 2048) (i j : Fin 64) : EReal :=
  ∑ k : Fin n, x i ⟨s + k.val, by omega⟩ * x j ⟨s + k.val, by omega⟩

/-- One group's share of the squared distance: the squared weight times the group's squared Euclidean
    distance by the norm expansion, bounded below by zero. (`0x40000000` is the float 2.) -/
def grpTerm (x : Fin 64 → Fin 2048 → EReal) (s n : ℕ) (h : s + n ≤ 2048) (w : EReal) (i j : Fin 64) : EReal :=
  (w * w) * max (nrm x s n h i + nrm x s n h j - Ideal.ofBits .f32 0x40000000#32 * gram x s n h i j) 0

/-- The squared distance group by group, summed in the kernel's order from zero. -/
def sqKer (x : Fin 64 → Fin 2048 → EReal) (a : Fin 64 → Fin 64 → Fin 6 → EReal) (i j : Fin 64) : EReal :=
  (((((0 + grpTerm x 0 341 (by omega) (a i j 0) i j) + grpTerm x 341 341 (by omega) (a i j 1) i j)
      + grpTerm x 682 341 (by omega) (a i j 2) i j) + grpTerm x 1023 341 (by omega) (a i j 3) i j)
      + grpTerm x 1364 341 (by omega) (a i j 4) i j) + grpTerm x 1705 343 (by omega) (a i j 5) i j

/-- The label mask: set where two samples carry the same label. -/
def sameLabel (t : Fin 64 → BitVec 32) (i j : Fin 64) : BitVec 1 := IntOp.cmpi .eq (t i) (t j)

/-- The distance from a squared distance: `√(max · ε)` (`0x2B8CBCCC` is the float nearest 1e-12). -/
def dst (s : EReal) : EReal := Ideal.sqrt (max s (Ideal.ofBits .f32 0x2B8CBCCC#32))

/-- The hardest positive of row `i`: the maximum, from -∞ (`0xFF800000`), of the distances at the set
    entries of the mask (an unset entry counts as -∞). -/
def hardPos (sq : Fin 64 → Fin 64 → EReal) (mk : Fin 64 → Fin 64 → BitVec 1) (i : Fin 64) : EReal :=
  (Finset.univ : Finset (Fin 64)).fold max (Ideal.ofBits .f32 0xFF800000#32)
    fun j => Scalar.select (mk i j) (dst (sq i j)) (Ideal.ofBits .f32 0xFF800000#32)

/-- The hardest negative of row `i`: the minimum, from +∞ (`0x7F800000`), of the distances at the unset
    entries of the mask (a set entry counts as +∞). -/
def hardNeg (sq : Fin 64 → Fin 64 → EReal) (mk : Fin 64 → Fin 64 → BitVec 1) (i : Fin 64) : EReal :=
  (Finset.univ : Finset (Fin 64)).fold min (Ideal.ofBits .f32 0x7F800000#32)
    fun j => Scalar.select (mk i j) (Ideal.ofBits .f32 0x7F800000#32) (dst (sq i j))

/-- Row `i`'s hinge (`0x3E99999A` is the float nearest 0.3, the margin). -/
def hinge (sq : Fin 64 → Fin 64 → EReal) (mk : Fin 64 → Fin 64 → BitVec 1) (i : Fin 64) : EReal :=
  max (hardPos sq mk i - hardNeg sq mk i + Ideal.ofBits .f32 0x3E99999A#32) 0

/-- The loss: the mean of the 64 hinges (`0x42800000` is the float 64). -/
def loss (sq : Fin 64 → Fin 64 → EReal) (mk : Fin 64 → Fin 64 → BitVec 1) : EReal :=
  Ideal.div (∑ i : Fin 64, hinge sq mk i) (Ideal.ofBits .f32 0x42800000#32)

end Cert.TripletSpec

end
-- ==== Proof.KerRead.lean ====
/-
  The kernel body's result, read at the ideal values, is the specification's loss of the group-by-group squared
  distance.

  The body accumulates, from zero, one share per feature group: the squared weight slab times
  `max (|x i|² + |x j|² - 2 ⟨x i, x j⟩) 0` over the group's columns, the norms and the Gram matrix formed as in
  Proof/KerGroup.lean. From that 64 × 64 matrix it takes the distance `√(max · ε)`, the row maximum over the set
  entries of the label mask and the row minimum over the unset ones (folds of `max` from -∞ and of `min` from +∞
  along the second coordinate), the hinge of each row as a 64 × 1 column, and the sum of the column divided by 64.
  The column groups are slices of the sample array and the weight slabs slices of the weight array, so each share is
  the specification's `grpTerm` and the accumulated matrix its `sqKer`; the label mask compares the label column
  with its own transpose.
-/
import proofs.«157513_j23716809408617_1_alg».proof.Proof.KerRun
import proofs.«157513_j23716809408617_1_alg».proof.Proof.KerGroup
import proofs.«157513_j23716809408617_1_alg».proof.Proof.Spec

set_option maxRecDepth 16384

noncomputable section

namespace Cert.KernelIdeal.KerRead

open Idealize.ShloMosaic Idealize.ShloMosaic.ValueIdx Cert.KernelIdeal Cert.KernelIdeal.Gen
open Cert.TripletLayout Cert.KernelIdeal.KerGroup

/-! ## The stages after the squared distances -/

/-- The distances: `√(max · ε)`, entry by entry. -/
def distOf (sq : FVec Ideal S64x64 .f32) : FVec Ideal S64x64 .f32 :=
  sqrt (maximumf sq (broadcast S64x64 (Scalar.ofBits .f32 0x2B8CBCCC#32)))

/-- The row maxima of the distances at the set entries of the mask. -/
def posOf (mk : IVec S64x64 1) (d : FVec Ideal S64x64 .f32) : FVec Ideal S64 .f32 :=
  multiReduction .maximumf [1] S64 (select mk d (broadcast S64x64 (Scalar.ofBits .f32 0xFF800000#32))) 0xFF800000#32
    Gen.reduces_S64x64_S64 (.inl rfl) rfl

/-- The row minima of the distances at the unset entries of the mask. -/
def negOf (mk : IVec S64x64 1) (d : FVec Ideal S64x64 .f32) : FVec Ideal S64 .f32 :=
  multiReduction .minimumf [1] S64 (select mk (broadcast S64x64 (Scalar.ofBits .f32 0x7F800000#32)) d) 0x7F800000#32
    Gen.reduces_S64x64_S64 (.inl rfl) rfl

/-- The hinges as a 64 × 1 column. -/
def hingeCol (p n : FVec Ideal S64 .f32) : FVec Ideal S64x1 .f32 :=
  maximumf
    (addf (subf (shapeCast S64x1 p Gen.shapeCasts_S64_S64x1) (shapeCast S64x1 n Gen.shapeCasts_S64_S64x1))
      (broadcast S64x1 (Scalar.ofBits .f32 0x3E99999A#32)))
    (broadcast S64x1 (Scalar.ofBits .f32 0x00000000#32))

/-- The mean of a 64 × 1 column as a 1 × 1 matrix. -/
def meanOf (h : FVec Ideal S64x1 .f32) : FVec Ideal S1x1 .f32 :=
  divf (shapeCast S1x1 (multiReduction .add [0] S1 h 0x00000000#32 Gen.reduces_S64x1_S1 (.inl rfl) rfl) Gen.shapeCasts_S1_S1x1)
    (broadcast S1x1 (Scalar.ofBits .f32 0x42800000#32))

/-- Everything after the squared distances. -/
def tailOf (mk : IVec S64x64 1) (sq : FVec Ideal S64x64 .f32) : FVec Ideal S1x1 .f32 :=
  meanOf (hingeCol (posOf mk (distOf sq)) (negOf mk (distOf sq)))

theorem distOf_apply (sq : FVec Ideal S64x64 .f32) (i j : Fin 64) :
    distOf sq (ix2 i j) = Cert.TripletSpec.dst (sq (ix2 i j)) := rfl

theorem lift_row (i j : Fin 64) : Gen.reduces_S64x64_S64.lift (ix1 i) j = ix2 i j := funext fun a => Fin.ext (by
  match a with
  | ⟨0, _⟩ => rfl
  | ⟨1, _⟩ => rfl)

/-- A row maximum of a 64 × 64 matrix from -∞, as a fold along the second coordinate. -/
theorem rowMax (src : FVec Ideal S64x64 .f32) (hφ : FKind.Formats .f32)
    (hacc : (0xFF800000#32 : BitVec 32) = 0xFF800000#32) (i : Fin 64) :
    multiReduction .maximumf [1] S64 src 0xFF800000#32 Gen.reduces_S64x64_S64 hφ hacc (ix1 i)
      = (Finset.univ : Finset (Fin 64)).fold max (Ideal.ofBits .f32 0xFF800000#32) fun j => src (ix2 i j) :=
  (Ideal.multiReduction_maximumf_single src 0xFF800000#32 Gen.reduces_S64x64_S64 hφ hacc (ix1 i)).trans
    (Finset.fold_congr fun j _ => congrArg src (lift_row i j))

/-- A row minimum of a 64 × 64 matrix from +∞, as a fold along the second coordinate. -/
theorem rowMin (src : FVec Ideal S64x64 .f32) (hφ : FKind.Formats .f32)
    (hacc : (0x7F800000#32 : BitVec 32) = 0x7F800000#32) (i : Fin 64) :
    multiReduction .minimumf [1] S64 src 0x7F800000#32 Gen.reduces_S64x64_S64 hφ hacc (ix1 i)
      = (Finset.univ : Finset (Fin 64)).fold min (Ideal.ofBits .f32 0x7F800000#32) fun j => src (ix2 i j) :=
  (multiReduction_minimumf_eq_fold src 0x7F800000#32 Gen.reduces_S64x64_S64 hφ hacc (ix1 i)).trans
    ((Gen.reduces_S64x64_S64.fold_filter_drop_single FloatOps.minimumf (FloatOps.ofBits .f32 0x7F800000#32) src (ix1 i)).trans
      (Finset.fold_congr fun j _ => congrArg src (lift_row i j)))

theorem posOf_apply (mk : IVec S64x64 1) (d : FVec Ideal S64x64 .f32) (i : Fin 64) :
    posOf mk d (ix1 i)
      = (Finset.univ : Finset (Fin 64)).fold max (Ideal.ofBits .f32 0xFF800000#32)
          fun j => Scalar.select (mk (ix2 i j)) (d (ix2 i j)) (Ideal.ofBits .f32 0xFF800000#32) :=
  rowMax _ (.inl rfl) rfl i

theorem negOf_apply (mk : IVec S64x64 1) (d : FVec Ideal S64x64 .f32) (i : Fin 64) :
    negOf mk d (ix1 i)
      = (Finset.univ : Finset (Fin 64)).fold min (Ideal.ofBits .f32 0x7F800000#32)
          fun j => Scalar.select (mk (ix2 i j)) (Ideal.ofBits .f32 0x7F800000#32) (d (ix2 i j)) :=
  rowMin _ (.inl rfl) rfl i

theorem hingeCol_apply (p n : FVec Ideal S64 .f32) (i : Fin 64) :
    hingeCol p n (ix2 i (0 : Fin 1)) = max (p (ix1 i) - n (ix1 i) + Ideal.ofBits .f32 0x3E99999A#32) 0 := by
  show max (shapeCast S64x1 p Gen.shapeCasts_S64_S64x1 (ix2 i (0 : Fin 1)) - shapeCast S64x1 n Gen.shapeCasts_S64_S64x1 (ix2 i (0 : Fin 1))
      + Ideal.ofBits .f32 0x3E99999A#32) (Ideal.ofBits .f32 0x00000000#32) = _
  rw [col_apply, col_apply, Ideal.ofBits_zero_f32]

theorem lift_col (k : Fin 64) : Gen.reduces_S64x1_S1.lift (ix1 (0 : Fin 1)) k = ix2 k (0 : Fin 1) := funext fun a => Fin.ext (by
  match a with
  | ⟨0, _⟩ => rfl
  | ⟨1, _⟩ => rfl)

theorem meanOf_apply (h : FVec Ideal S64x1 .f32) :
    meanOf h (ix2 (0 : Fin 1) (0 : Fin 1)) = Ideal.div (∑ i : Fin 64, h (ix2 i (0 : Fin 1))) (Ideal.ofBits .f32 0x42800000#32) := by
  show Ideal.div (shapeCast S1x1 _ Gen.shapeCasts_S1_S1x1 (ix2 (0 : Fin 1) (0 : Fin 1))) (Ideal.ofBits .f32 0x42800000#32) = _
  rw [one_apply]
  refine congrArg₂ Ideal.div ?_ rfl
  refine (Ideal.multiReduction_add_single h 0x00000000#32 Gen.reduces_S64x1_S1 (.inl rfl) rfl (ix1 (0 : Fin 1))).trans ?_
  exact Finset.sum_congr rfl fun k _ => congrArg h (lift_col k)

theorem tailOf_apply (mk : IVec S64x64 1) (sq : FVec Ideal S64x64 .f32) :
    tailOf mk sq (ix2 (0 : Fin 1) (0 : Fin 1))
      = Cert.TripletSpec.loss (fun i j => sq (ix2 i j)) (fun i j => mk (ix2 i j)) := by
  unfold tailOf
  rw [meanOf_apply]
  unfold Cert.TripletSpec.loss
  refine congrArg₂ Ideal.div (Finset.sum_congr rfl fun i _ => ?_) rfl
  rw [hingeCol_apply, posOf_apply, negOf_apply]
  rfl

/-! ## The squared distances the body accumulates -/

/-- The accumulated matrix: from zero, one share per group, in the body's order. -/
def sqMat (x0 x1 x2 x3 x4 : FVec Ideal S64x341 .f32) (x5 : FVec Ideal S64x343 .f32) (w0 w1 w2 w3 w4 w5 : FVec Ideal S64x64 .f32) : FVec Ideal S64x64 .f32 :=
  addf (addf (addf (addf (addf (addf (broadcast S64x64 (Scalar.ofBits .f32 0x00000000#32)) (shareOf w0 (normMat341 x0) (twice (gramMat341 x0)))) (shareOf w1 (normMat341 x1) (twice (gramMat341 x1)))) (shareOf w2 (normMat341 x2) (twice (gramMat341 x2)))) (shareOf w3 (normMat341 x3) (twice (gramMat341 x3)))) (shareOf w4 (normMat341 x4) (twice (gramMat341 x4)))) (shareOf w5 (normMat343 x5) (twice (gramMat343 x5)))

theorem sqMat_apply (x0 x1 x2 x3 x4 : FVec Ideal S64x341 .f32) (x5 : FVec Ideal S64x343 .f32) (w0 w1 w2 w3 w4 w5 : FVec Ideal S64x64 .f32) (i j : Fin 64) :
    sqMat x0 x1 x2 x3 x4 x5 w0 w1 w2 w3 w4 w5 (ix2 i j)
      = (((((((0 : EReal) + (w0 (ix2 i j) * w0 (ix2 i j)) * max ((∑ k : Fin 341, x0 (ix2 i k) * x0 (ix2 i k)) + (∑ k : Fin 341, x0 (ix2 j k) * x0 (ix2 j k)) - Ideal.ofBits .f32 0x40000000#32 * ∑ k : Fin 341, x0 (ix2 i k) * x0 (ix2 j k)) 0) + (w1 (ix2 i j) * w1 (ix2 i j)) * max ((∑ k : Fin 341, x1 (ix2 i k) * x1 (ix2 i k)) + (∑ k : Fin 341, x1 (ix2 j k) * x1 (ix2 j k)) - Ideal.ofBits .f32 0x40000000#32 * ∑ k : Fin 341, x1 (ix2 i k) * x1 (ix2 j k)) 0) + (w2 (ix2 i j) * w2 (ix2 i j)) * max ((∑ k : Fin 341, x2 (ix2 i k) * x2 (ix2 i k)) + (∑ k : Fin 341, x2 (ix2 j k) * x2 (ix2 j k)) - Ideal.ofBits .f32 0x40000000#32 * ∑ k : Fin 341, x2 (ix2 i k) * x2 (ix2 j k)) 0) + (w3 (ix2 i j) * w3 (ix2 i j)) * max ((∑ k : Fin 341, x3 (ix2 i k) * x3 (ix2 i k)) + (∑ k : Fin 341, x3 (ix2 j k) * x3 (ix2 j k)) - Ideal.ofBits .f32 0x40000000#32 * ∑ k : Fin 341, x3 (ix2 i k) * x3 (ix2 j k)) 0) + (w4 (ix2 i j) * w4 (ix2 i j)) * max ((∑ k : Fin 341, x4 (ix2 i k) * x4 (ix2 i k)) + (∑ k : Fin 341, x4 (ix2 j k) * x4 (ix2 j k)) - Ideal.ofBits .f32 0x40000000#32 * ∑ k : Fin 341, x4 (ix2 i k) * x4 (ix2 j k)) 0) + (w5 (ix2 i j) * w5 (ix2 i j)) * max ((∑ k : Fin 343, x5 (ix2 i k) * x5 (ix2 i k)) + (∑ k : Fin 343, x5 (ix2 j k) * x5 (ix2 j k)) - Ideal.ofBits .f32 0x40000000#32 * ∑ k : Fin 343, x5 (ix2 i k) * x5 (ix2 j k)) 0) := by
  unfold sqMat
  simp only [addf_apply, shareOf_apply, twice_apply, normMat341_apply, gramMat341_apply, normMat343_apply, gramMat343_apply]
  show ((((((Ideal.ofBits .f32 0x00000000#32 : EReal) + _) + _) + _) + _) + _) + _ = _
  rw [Ideal.ofBits_zero_f32]

theorem hz : (![0, 0] : Fin 2 → Nat) = fun _ => 0 := funext fun a => by fin_cases a <;> rfl

/-- The body's result of its thirteen input blocks is the tail of the accumulated matrix and the label mask. -/
theorem out_eq (x0 x1 x2 x3 x4 : FVec Ideal S64x341 .f32) (x5 : FVec Ideal S64x343 .f32) (w0 w1 w2 w3 w4 w5 : FVec Ideal S64x64 .f32) (tc : Vec Ideal S64x1 .i32) :
    Gen.out0_13 x0 x1 x2 x3 x4 x5 w0 w1 w2 w3 w4 w5 tc
      = tailOf (k0_pay2 tc) (sqMat x0 x1 x2 x3 x4 x5 w0 w1 w2 w3 w4 w5) := by
  unfold Gen.out0_13
  rw [View.canon_unit_zero hz]
  simp only [View.ld_unit_zero (S := S64x341) hz, View.ld_unit_zero (S := S64x343) hz, View.ld_unit_zero (S := S64x64) hz,
    View.ld_unit_zero (S := S64x1) hz]
  show tailOf (k0_pay2 tc) (sqMat (shapeCast S64x341 x0 Gen.shapeCasts_S64x341_S64x341) (shapeCast S64x341 x1 Gen.shapeCasts_S64x341_S64x341) (shapeCast S64x341 x2 Gen.shapeCasts_S64x341_S64x341) (shapeCast S64x341 x3 Gen.shapeCasts_S64x341_S64x341) (shapeCast S64x341 x4 Gen.shapeCasts_S64x341_S64x341) (shapeCast S64x343 x5 Gen.shapeCasts_S64x343_S64x343) (shapeCast S64x64 w0 Gen.shapeCasts_S64x64_S64x64) (shapeCast S64x64 w1 Gen.shapeCasts_S64x64_S64x64) (shapeCast S64x64 w2 Gen.shapeCasts_S64x64_S64x64) (shapeCast S64x64 w3 Gen.shapeCasts_S64x64_S64x64) (shapeCast S64x64 w4 Gen.shapeCasts_S64x64_S64x64) (shapeCast S64x64 w5 Gen.shapeCasts_S64x64_S64x64)) = _
  simp only [shapeCast_self]

/-! ## The label mask -/

theorem mask_apply (tc : IVec S64x1 32) (i j : Fin 64) :
    k0_pay2 (F := Ideal) tc (ix2 i j) = IntOp.cmpi .eq (tc (ix2 i (0 : Fin 1))) (tc (ix2 j (0 : Fin 1))) := by
  show IntOp.cmpi .eq (broadcastTo S64x64 (shapeCast S64x1 tc Gen.shapeCasts_S64x1_S64x1) Gen.broadcasts_S64x1_S64x64 (ix2 i j))
      (broadcastTo S64x64 (transpose S1x64 [1, 0] (shapeCast S64x1 tc Gen.shapeCasts_S64x1_S64x1) Gen.transposes_S64x1_p1_0_S1x64) Gen.broadcasts_S1x64_S64x64 (ix2 i j)) = _
  rw [bcol_apply, broadcastTo_1b_ab_apply, colT_apply, shapeCast_self]

/-! ## The groups and slabs as slices of the arguments -/

theorem slice_at (X : FVec Ideal S64x2048 .f32) (off n : ℕ) (h : off + n ≤ 2048)
    (hs : (⟨2, ![64, 2048]⟩ : Shape).Slices ![0, off] ⟨2, ![64, n]⟩) (i : Fin 64) (k : Fin n) :
    extractStridedSlice ⟨2, ![64, n]⟩ ![0, off] X hs (ix2 i k) = X (ix2 i ⟨off + k.val, by omega⟩) :=
  slice2_axis1_apply off X hs i k ⟨off + k.val, by omega⟩ rfl

theorem slab_at (A : FVec Ideal S64x64x6 .f32) (g : ℕ) (hg : g < 6)
    (hs : (⟨3, ![64, 64, 6]⟩ : Shape).Slices ![0, 0, g] ⟨3, ![64, 64, 1]⟩)
    (hc : (⟨3, ![64, 64, 1]⟩ : Shape).ShapeCasts ⟨2, ![64, 64]⟩) (i j : Fin 64) :
    shapeCast ⟨2, ![64, 64]⟩ (extractStridedSlice ⟨3, ![64, 64, 1]⟩ ![0, 0, g] A hs) hc (ix2 i j) = A (ix3 i j ⟨g, hg⟩) := by
  refine (slab_apply _ hc i j).trans ?_
  refine extractStridedSlice_apply _ A hs (ix3 i j (0 : Fin 1)) (ix3 i j ⟨g, hg⟩) fun a => ?_
  match a with
  | ⟨0, _⟩ => show i.val = 0 + i.val; omega
  | ⟨1, _⟩ => show j.val = 0 + j.val; omega
  | ⟨2, _⟩ => show g = g + 0; omega

/-- One group's share over a slice of the sample array is the specification's share of that run of features. -/
theorem share_slice (X : FVec Ideal S64x2048 .f32) (off n : ℕ) (h : off + n ≤ 2048)
    (hs : (⟨2, ![64, 2048]⟩ : Shape).Slices ![0, off] ⟨2, ![64, n]⟩) (W : EReal) (i j : Fin 64) :
    (W * W) * max ((∑ k : Fin n, extractStridedSlice ⟨2, ![64, n]⟩ ![0, off] X hs (ix2 i k) * extractStridedSlice ⟨2, ![64, n]⟩ ![0, off] X hs (ix2 i k))
        + (∑ k : Fin n, extractStridedSlice ⟨2, ![64, n]⟩ ![0, off] X hs (ix2 j k) * extractStridedSlice ⟨2, ![64, n]⟩ ![0, off] X hs (ix2 j k))
        - Ideal.ofBits .f32 0x40000000#32 * ∑ k : Fin n, extractStridedSlice ⟨2, ![64, n]⟩ ![0, off] X hs (ix2 i k) * extractStridedSlice ⟨2, ![64, n]⟩ ![0, off] X hs (ix2 j k)) 0
      = Cert.TripletSpec.grpTerm (fun i k => X (ix2 i k)) off n h W i j := by
  unfold Cert.TripletSpec.grpTerm Cert.TripletSpec.nrm Cert.TripletSpec.gram
  simp only [slice_at X off n h hs]

/-! ## The kernel's value -/

/-- The program's scalar result is the specification's loss of the group-by-group squared distance of the arguments. -/
theorem kernel_value (X : FVec Ideal S64x2048 .f32) (T : IVec S64 32) (A : FVec Ideal S64x64x6 .f32) :
    shapeCast S_ (Cert.KernelIdeal.KerRun.kernelOut (F := Ideal) X T A) Gen.shapeCasts_S1x1_S_
      = fun _ => Cert.TripletSpec.loss
          (Cert.TripletSpec.sqKer (fun i k => X (ix2 i k)) (fun i j g => A (ix3 i j g)))
          (Cert.TripletSpec.sameLabel fun i => T (ix1 i)) := by
  funext idx
  rw [eq_ix0 idx]
  refine (scalar_apply _ Gen.shapeCasts_S1x1_S_).trans ?_
  unfold Cert.KernelIdeal.KerRun.kernelOut
  rw [out_eq, tailOf_apply]
  refine congrArg₂ Cert.TripletSpec.loss (funext fun i => funext fun j => ?_) (funext fun i => funext fun j => ?_)
  · rw [sqMat_apply]
    unfold Cert.TripletSpec.sqKer
    rw [slab_at A 0 (by omega) Gen.slices_S64x64x6_S64x64x1_0_0_0 Gen.shapeCasts_S64x64x1_S64x64 i j,
      slab_at A 1 (by omega) Gen.slices_S64x64x6_S64x64x1_0_0_1 Gen.shapeCasts_S64x64x1_S64x64 i j,
      slab_at A 2 (by omega) Gen.slices_S64x64x6_S64x64x1_0_0_2 Gen.shapeCasts_S64x64x1_S64x64 i j,
      slab_at A 3 (by omega) Gen.slices_S64x64x6_S64x64x1_0_0_3 Gen.shapeCasts_S64x64x1_S64x64 i j,
      slab_at A 4 (by omega) Gen.slices_S64x64x6_S64x64x1_0_0_4 Gen.shapeCasts_S64x64x1_S64x64 i j,
      slab_at A 5 (by omega) Gen.slices_S64x64x6_S64x64x1_0_0_5 Gen.shapeCasts_S64x64x1_S64x64 i j,
      share_slice X 0 341 (by omega) Gen.slices_S64x2048_S64x341_0_0, share_slice X 341 341 (by omega) Gen.slices_S64x2048_S64x341_0_341,
      share_slice X 682 341 (by omega) Gen.slices_S64x2048_S64x341_0_682, share_slice X 1023 341 (by omega) Gen.slices_S64x2048_S64x341_0_1023,
      share_slice X 1364 341 (by omega) Gen.slices_S64x2048_S64x341_0_1364, share_slice X 1705 343 (by omega) Gen.slices_S64x2048_S64x343_0_1705]
    rfl
  · rw [mask_apply, col_apply, col_apply]
    rfl

end Cert.KernelIdeal.KerRead

end
-- ==== Proof.RefTerm.lean ====
/-
  The reference's value as ONE pure term of its three arguments.

  The reference computes, for every ordered pair (i, j) of the 64 samples, the weighted squared distance
  `∑ k, (w i j (g k) * (x j k - x i k))²` over the 2048 features `k`, the weight of a feature being the one of the
  group `g k` (six groups) that a constant table of 2048 group numbers assigns to it (a gather of the weight array
  along its last axis by that table); then the distance `√(max ε ·)`, the hardest positive (the row maximum over the
  pairs with equal labels) and the hardest negative (the row minimum over the others), the hinge
  `max (pos - neg + margin) 0` per row, and the mean of the 64 hinges. The definitions below spell these stages
  with the program's own operations, in the program's order, so that the program's run ends at `result`.
-/
import proofs.«157513_j23716809408617_1_alg».proof.ReferenceIdeal

noncomputable section

namespace Cert.ReferenceIdeal.RefTerm

open Idealize.ShloMosaic Cert.ReferenceIdeal
open Cert.ReferenceIdeal.Facts₀ Cert.ReferenceIdeal.Facts

variable {F : FTy → Type} [FloatOps F] [Cert.ReferenceIdeal.Facts]

/-- The table of group numbers, one per feature, as an index vector. -/
def groupTable : IVec S2048 32 := fun i => lit0 (S2048.rowMajor i)

/-- The start indices of the gather: the table, a negative entry wrapped by the group count (no entry is
    negative: the selecting mask is constantly false), as a column. -/
def startIdx : IVec S2048x1 32 :=
  broadcastInDim S2048x1 ![0] bcast_S2048_S2048x1_0
    (select (constantI S2048 1 0#1)
      (addi groupTable (broadcastInDim S2048 ![] bcast_S_S2048 (constantI S_ 32 6#32))) groupTable)

/-- The per-feature weights: the weight array gathered along its last axis by the table. -/
def weights (a : FVec F S64x64x6 .f32) : FVec F S64x64x2048 .f32 :=
  Host.gather gather_S64x64x6_S2048x1_S64x64x2048_01_2_n_n_2_1_64641 a startIdx

/-- The pairwise differences `x j k - x i k`. -/
def diffs (x : FVec F S64x2048 .f32) : FVec F S64x64x2048 .f32 :=
  subf
    (broadcastInDim S64x64x2048 ![0, 1, 2] bcast_S1x64x2048_S64x64x2048_0_1_2
      (broadcastInDim S1x64x2048 ![1, 2] bcast_S64x2048_S1x64x2048_1_2 x))
    (broadcastInDim S64x64x2048 ![0, 1, 2] bcast_S64x1x2048_S64x64x2048_0_1_2
      (broadcastInDim S64x1x2048 ![0, 2] bcast_S64x2048_S64x1x2048_0_2 x))

/-- The weighted squared distances: the sum over the features of the squared weighted differences. -/
def sqDist (x : FVec F S64x2048 .f32) (a : FVec F S64x64x6 .f32) : FVec F S64x64 .f32 :=
  Host.reduceAdd (mulf (mulf (weights a) (diffs x)) (mulf (weights a) (diffs x)))
    (constant S_ .f32 0x00000000#32) reducesTo_S64x64x2048_S64x64_d2 h_S_

/-- The label mask: entry (i, j) is set when samples i and j carry the same label. -/
def sameLabel (t : IVec S64 32) : IVec S64x64 1 :=
  cmpi .eq
    (broadcastInDim S64x64 ![0, 1] bcast_S64x1_S64x64_0_1 (broadcastInDim S64x1 ![0] bcast_S64_S64x1_0 t))
    (broadcastInDim S64x64 ![0, 1] bcast_S1x64_S64x64_0_1 (broadcastInDim S1x64 ![1] bcast_S64_S1x64_1 t))

/-- The distances: the square root of the squared distances bounded below by ε. -/
def dist (sq : FVec F S64x64 .f32) : FVec F S64x64 .f32 :=
  Host.sqrt (maximumf (broadcastInDim S64x64 ![] bcast_S_S64x64 (id (constant S_ .f32 0x2B8CBCCC#32))) sq)

/-- The hardest positive of each row: the maximum of the distances over the pairs with equal labels. -/
def hardPos (mk : IVec S64x64 1) (d : FVec F S64x64 .f32) : FVec F S64 .f32 :=
  Host.reduce FloatOps.maximumf
    (select mk d (broadcastInDim S64x64 ![] bcast_S_S64x64 (id (constant S_ .f32 0xFF800000#32))))
    (constant S_ .f32 0xFF800000#32) reducesTo_S64x64_S64_d1 h_S_

/-- The hardest negative of each row: the minimum of the distances over the pairs with different labels. -/
def hardNeg (mk : IVec S64x64 1) (d : FVec F S64x64 .f32) : FVec F S64 .f32 :=
  Host.reduce FloatOps.minimumf
    (select mk (broadcastInDim S64x64 ![] bcast_S_S64x64 (id (constant S_ .f32 0x7F800000#32))) d)
    (constant S_ .f32 0x7F800000#32) reducesTo_S64x64_S64_d1 h_S_

/-- The mean over the rows of the hinge of (hardest positive - hardest negative + margin). -/
def meanHinge (p n : FVec F S64 .f32) : FVec F S_ .f32 :=
  Host.divf
    (Host.reduceAdd
      (maximumf (addf (subf p n) (broadcastInDim S64 ![] bcast_S_S64 (constant S_ .f32 0x3E99999A#32)))
        (broadcastInDim S64 ![] bcast_S_S64 (constant S_ .f32 0x00000000#32)))
      (constant S_ .f32 0x00000000#32) reducesTo_S64_S_d0 h_S_)
    (constant S_ .f32 0x42800000#32)

/-- The loss from the squared distances and the label mask. -/
def lossOf (sq : FVec F S64x64 .f32) (mk : IVec S64x64 1) : FVec F S_ .f32 :=
  meanHinge (hardPos mk (dist sq)) (hardNeg mk (dist sq))

/-- The reference's result as a function of its arguments. -/
def result (x : FVec F S64x2048 .f32) (t : IVec S64 32) (a : FVec F S64x64x6 .f32) : FVec F S_ .f32 :=
  lossOf (sqDist x a) (sameLabel t)

end Cert.ReferenceIdeal.RefTerm

end
-- ==== Proof.RefRun.lean ====
/-
  The reference program's run, read back as one term of its three arguments.

  The reference is a straight line of fifty tensor operations: thirty-eight of its own and twelve more from the
  four functions it calls (the clip of the squared distances at ε, the two masked selections that feed the row
  maximum and the row minimum, and the hinge's maximum with zero), each callee's three operations taking the
  place of the call, over that call's own buffers. Written as that list, the program is the list run in order;
  none of its buffers is scoped, and every operation touches tensor buffers only. Hence, from any memory with
  zero counters, every weakly fair execution terminates, and each buffer then holds what the list's fold holds
  there. At the result buffer the fold is the composition of the operations in the program's order: the gather of
  the weights by the constant table of group numbers, the pairwise differences, the sum of the squared weighted
  differences, the distances, the hardest positive and the hardest negative of each row, and the mean of the
  hinges, which is the term `RefTerm.result` of the three arguments. No operation writes an argument's buffer, so
  the arguments are unchanged.
-/
import proofs.«157513_j23716809408617_1_alg».proof.Proof.Gen.ReferenceIdeal
import proofs.«157513_j23716809408617_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's fifty operations, in order: its own thirty-eight, and in the place of each of its four calls
    the callee's three over that call's buffers (the scalar's conversion, its broadcast and the maximum, for the
    clip at ε; the conversion, the broadcast and the selection, for each masked selection; the zero, its
    broadcast and the maximum, for the hinge). -/
abbrev ops : List (HloOp τ sig (Elt F)) :=
  [ nullary main_c (fun i => lit0 (S2048.rowMajor i)),
    nullary main_c_0 (constantI S2048 1 0#1),
    nullary main_c_1 (constantI S_ 32 6#32),
    unary main_c_1 main_v0 (broadcastInDim S2048 ![] bcast_S_S2048 : (⟨S_, .i32⟩ : BufTy).Contents (Elt F) → (⟨S2048, .i32⟩ : BufTy).Contents (Elt F)),
    binary main_c main_v0 main_v1 (addi : (⟨S2048, .i32⟩ : BufTy).Contents (Elt F) → (⟨S2048, .i32⟩ : BufTy).Contents (Elt F) → (⟨S2048, .i32⟩ : BufTy).Contents (Elt F)),
    ternary main_c_0 main_v1 main_c main_v2 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v2 main_v3 (broadcastInDim S2048x1 ![0] bcast_S2048_S2048x1_0 : (⟨S2048, .i32⟩ : BufTy).Contents (Elt F) → (⟨S2048x1, .i32⟩ : BufTy).Contents (Elt F)),
    binary main_arg2 main_v3 main_v4 ((fun x i => Host.gather gather_S64x64x6_S2048x1_S64x64x2048_01_2_n_n_2_1_64641 x i) : (⟨S64x64x6, .f32⟩ : BufTy).Contents (Elt F) → (⟨S2048x1, .i32⟩ : BufTy).Contents (Elt F) → (⟨S64x64x2048, .f32⟩ : BufTy).Contents (Elt F)),
    unary main_arg0 main_v5 (broadcastInDim S1x64x2048 ![1, 2] bcast_S64x2048_S1x64x2048_1_2 : (⟨S64x2048, .f32⟩ : BufTy).Contents (Elt F) → (⟨S1x64x2048, .f32⟩ : BufTy).Contents (Elt F)),
    unary main_arg0 main_v6 (broadcastInDim S64x1x2048 ![0, 2] bcast_S64x2048_S64x1x2048_0_2 : (⟨S64x2048, .f32⟩ : BufTy).Contents (Elt F) → (⟨S64x1x2048, .f32⟩ : BufTy).Contents (Elt F)),
    unary main_v5 main_v7 (broadcastInDim S64x64x2048 ![0, 1, 2] bcast_S1x64x2048_S64x64x2048_0_1_2 : (⟨S1x64x2048, .f32⟩ : BufTy).Contents (Elt F) → (⟨S64x64x2048, .f32⟩ : BufTy).Contents (Elt F)),
    unary main_v6 main_v8 (broadcastInDim S64x64x2048 ![0, 1, 2] bcast_S64x1x2048_S64x64x2048_0_1_2 : (⟨S64x1x2048, .f32⟩ : BufTy).Contents (Elt F) → (⟨S64x64x2048, .f32⟩ : BufTy).Contents (Elt F)),
    binary main_v7 main_v8 main_v9 (subf : (⟨S64x64x2048, .f32⟩ : BufTy).Contents (Elt F) → (⟨S64x64x2048, .f32⟩ : BufTy).Contents (Elt F) → (⟨S64x64x2048, .f32⟩ : BufTy).Contents (Elt F)),
    binary main_v4 main_v9 main_v10 (mulf : (⟨S64x64x2048, .f32⟩ : BufTy).Contents (Elt F) → (⟨S64x64x2048, .f32⟩ : BufTy).Contents (Elt F) → (⟨S64x64x2048, .f32⟩ : BufTy).Contents (Elt F)),
    binary main_v10 main_v10 main_v11 (mulf : (⟨S64x64x2048, .f32⟩ : BufTy).Contents (Elt F) → (⟨S64x64x2048, .f32⟩ : BufTy).Contents (Elt F) → (⟨S64x64x2048, .f32⟩ : BufTy).Contents (Elt F)),
    nullary main_cst (constant S_ .f32 0x00000000#32),
    binary main_v11 main_cst main_v12 ((fun x v => Host.reduceAdd x v reducesTo_S64x64x2048_S64x64_d2 h_S_) : (⟨S64x64x2048, .f32⟩ : BufTy).Contents (Elt F) → (⟨S_, .f32⟩ : BufTy).Contents (Elt F) → (⟨S64x64, .f32⟩ : BufTy).Contents (Elt F)),
    nullary main_cst_2 (constant S_ .f32 0x2B8CBCCC#32),
    TRef.unary (.of main_cst_2) main_call0.v0 id,
    TRef.unary main_call0.v0 main_call0.v1 (broadcastInDim S64x64 ![] bcast_S_S64x64),
    TRef.binary main_call0.v1 (.of main_v12) main_call0.v2 maximumf,
    unary main_v13 main_v14 (Host.sqrt : (⟨S64x64, .f32⟩ : BufTy).Contents (Elt F) → (⟨S64x64, .f32⟩ : BufTy).Contents (Elt F)),
    unary main_arg1 main_v15 (broadcastInDim S64x1 ![0] bcast_S64_S64x1_0 : (⟨S64, .i32⟩ : BufTy).Contents (Elt F) → (⟨S64x1, .i32⟩ : BufTy).Contents (Elt F)),
    unary main_arg1 main_v16 (broadcastInDim S1x64 ![1] bcast_S64_S1x64_1 : (⟨S64, .i32⟩ : BufTy).Contents (Elt F) → (⟨S1x64, .i32⟩ : BufTy).Contents (Elt F)),
    unary main_v15 main_v17 (broadcastInDim S64x64 ![0, 1] bcast_S64x1_S64x64_0_1 : (⟨S64x1, .i32⟩ : BufTy).Contents (Elt F) → (⟨S64x64, .i32⟩ : BufTy).Contents (Elt F)),
    unary main_v16 main_v18 (broadcastInDim S64x64 ![0, 1] bcast_S1x64_S64x64_0_1 : (⟨S1x64, .i32⟩ : BufTy).Contents (Elt F) → (⟨S64x64, .i32⟩ : BufTy).Contents (Elt F)),
    binary main_v17 main_v18 main_v19 (cmpi .eq : (⟨S64x64, .i32⟩ : BufTy).Contents (Elt F) → (⟨S64x64, .i32⟩ : BufTy).Contents (Elt F) → (⟨S64x64, .i1⟩ : BufTy).Contents (Elt F)),
    nullary main_cst_3 (constant S_ .f32 0xFF800000#32),
    TRef.unary (.of main_cst_3) main_call1.v0 id,
    TRef.unary main_call1.v0 main_call1.v1 (broadcastInDim S64x64 ![] bcast_S_S64x64),
    TRef.ternary (.of main_v19) (.of main_v14) main_call1.v1 main_call1.v2 select,
    nullary main_cst_4 (constant S_ .f32 0xFF800000#32),
    binary main_v20 main_cst_4 main_v21 ((fun x v => Host.reduce FloatOps.maximumf x v reducesTo_S64x64_S64_d1 h_S_) : (⟨S64x64, .f32⟩ : BufTy).Contents (Elt F) → (⟨S_, .f32⟩ : BufTy).Contents (Elt F) → (⟨S64, .f32⟩ : BufTy).Contents (Elt F)),
    nullary main_cst_5 (constant S_ .f32 0x7F800000#32),
    TRef.unary (.of main_cst_5) main_call2.v0 id,
    TRef.unary main_call2.v0 main_call2.v1 (broadcastInDim S64x64 ![] bcast_S_S64x64),
    TRef.ternary (.of main_v19) main_call2.v1 (.of main_v14) main_call2.v2 select,
    nullary main_cst_6 (constant S_ .f32 0x7F800000#32),
    binary main_v22 main_cst_6 main_v23 ((fun x v => Host.reduce FloatOps.minimumf x v reducesTo_S64x64_S64_d1 h_S_) : (⟨S64x64, .f32⟩ : BufTy).Contents (Elt F) → (⟨S_, .f32⟩ : BufTy).Contents (Elt F) → (⟨S64, .f32⟩ : BufTy).Contents (Elt F)),
    binary main_v21 main_v23 main_v24 (subf : (⟨S64, .f32⟩ : BufTy).Contents (Elt F) → (⟨S64, .f32⟩ : BufTy).Contents (Elt F) → (⟨S64, .f32⟩ : BufTy).Contents (Elt F)),
    nullary main_cst_7 (constant S_ .f32 0x3E99999A#32),
    unary main_cst_7 main_v25 (broadcastInDim S64 ![] bcast_S_S64 : (⟨S_, .f32⟩ : BufTy).Contents (Elt F) → (⟨S64, .f32⟩ : BufTy).Contents (Elt F)),
    binary main_v24 main_v25 main_v26 (addf : (⟨S64, .f32⟩ : BufTy).Contents (Elt F) → (⟨S64, .f32⟩ : BufTy).Contents (Elt F) → (⟨S64, .f32⟩ : BufTy).Contents (Elt F)),
    TRef.nullary main_call3.cst (constant S_ .f32 0x00000000#32),
    TRef.unary main_call3.cst main_call3.v0 (broadcastInDim S64 ![] bcast_S_S64),
    TRef.binary (.of main_v26) main_call3.v0 main_call3.v1 maximumf,
    nullary main_cst_8 (constant S_ .f32 0x00000000#32),
    binary main_v27 main_cst_8 main_v28 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_9 (constant S_ .f32 0x42800000#32),
    binary main_v28 main_cst_9 main_v29 (Host.divf : (⟨S_, .f32⟩ : BufTy).Contents (Elt F) → (⟨S_, .f32⟩ : BufTy).Contents (Elt F) → (⟨S_, .f32⟩ : BufTy).Contents (Elt F)) ]

-- fifty binds re-associated: the rewrite under the chain recurses once per statement
set_option maxRecDepth 4096 in
/-- The program is that straight line: each callee's definition unfolded at its call and each call's record at its
    fields, both sides are one chain of steps once sequencing is re-associated. -/
theorem main_eq (c : Dev nD) : main (F := F) c = seq ops := by
  simp only [main, fn_clip.body, fn_where.body, fn_where_0.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches tensor buffers only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., ternary_bufs_sub ..,
    unary_bufs_sub .., binary_bufs_sub .., unary_bufs_sub .., unary_bufs_sub .., unary_bufs_sub .., unary_bufs_sub ..,
    binary_bufs_sub .., binary_bufs_sub .., binary_bufs_sub .., nullary_bufs_sub .., binary_bufs_sub .., nullary_bufs_sub ..,
    unary_bufs_sub .., unary_bufs_sub .., binary_bufs_sub .., unary_bufs_sub .., unary_bufs_sub .., unary_bufs_sub ..,
    unary_bufs_sub .., unary_bufs_sub .., binary_bufs_sub .., nullary_bufs_sub .., unary_bufs_sub .., unary_bufs_sub ..,
    ternary_bufs_sub .., nullary_bufs_sub .., binary_bufs_sub .., nullary_bufs_sub .., unary_bufs_sub .., unary_bufs_sub ..,
    ternary_bufs_sub .., nullary_bufs_sub .., binary_bufs_sub .., binary_bufs_sub .., nullary_bufs_sub .., unary_bufs_sub ..,
    binary_bufs_sub .., nullary_bufs_sub .., unary_bufs_sub .., binary_bufs_sub .., nullary_bufs_sub .., binary_bufs_sub ..,
    nullary_bufs_sub .., binary_bufs_sub ..⟩

attribute [local irreducible] Host.reduce Host.reduceAdd Host.gather in
set_option maxRecDepth 8192 in
set_option maxHeartbeats 400000 in
/-- The fold at the result buffer is the composed term of the three arguments' contents: each operation's result
    at its own buffer is its function of its operands' contents, at any other buffer what was there, and a
    callee's typed buffers carry their contents unchanged. The reductions and the gather stay folded: the
    equation never looks inside them. -/
theorem out_eq (V : Valuation τ sig (Elt F)) :
    after ops V (main_v29 : DevRef τ sig)
      = RefTerm.result (V (main_arg0 : DevRef τ sig)) (V (main_arg1 : DevRef τ sig)) (V (main_arg2 : DevRef τ sig)) := by
  after_results_simp
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- No operation writes the third argument's buffer. -/
theorem arg2_eq (V : Valuation τ sig (Elt F)) :
    after ops V (main_arg2 : DevRef τ sig) = V (main_arg2 : DevRef τ sig) := by
  after_results_simp

/-- On every device, for any float values, from any memory with zero counters: every weakly fair execution of the
    program terminates with the result buffer at `RefTerm.result` of the three arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = Cert.ReferenceIdeal.RefTerm.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v29).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefRead.lean ====
/-
  The reference's value, read at the extended reals, is the loss of the feature-by-feature squared distance.

  The reference's term is a chain of array operations; each stage is read here at one index, the index written
  by its coordinates:
  • the start indices of the gather are the constant table of group numbers itself (the mask that would wrap a
    negative entry is constantly false), and entry `k` of that table is `min (k / 341) 5`, the group of feature
    `k` — a finite check over the 2048 entries; the gather clamps a start index into `0 … 5`, which leaves these
    entries as they are, so the gathered weight at `(i, j, k)` is the weight `a i j (grp k)`;
  • the two broadcasts of the samples give the difference `x j k - x i k` at `(i, j, k)`;
  • the sum over the last axis from the initial value `0` is the sum over the 2048 features of the squared
    weighted differences: the specification's `sqRef`;
  • the comparison of the two broadcast label vectors is the label mask;
  • the distance is `√(max · ε)` (the program writes `max ε ·`; `max` commutes);
  • the row maximum (minimum) of the selected distances is the fold of `max` (`min`) over the second coordinate
    from -∞ (+∞);
  • the sum over the 64 rows of the hinges, divided by 64, is the mean.
  Put together: the reference's result at its one index is the specification's `loss` of `sqRef` and the label mask.
-/
import proofs.«157513_j23716809408617_1_alg».proof.Proof.Gen.ReferenceIdeal
import proofs.«157513_j23716809408617_1_alg».proof.Proof.RefTerm
import proofs.«157513_j23716809408617_1_alg».proof.Proof.Spec
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefRead

open Idealize.ShloMosaic Idealize.ShloMosaic.ValueIdx Cert.ReferenceIdeal
open Cert.ReferenceIdeal.Facts₀ Cert.ReferenceIdeal.Facts
open Cert.ReferenceIdeal.RefTerm
open scoped BigOperators

/-- Entry `k` of the table of group numbers, read as a signed start index and clamped into `0 … 5`, is
    `min (k / 341) 5`: checked at each of the 2048 entries. -/
theorem table_val : ∀ k : Fin 2048, min (lit0 k).toInt.toNat 5 = min (k.val / 341) 5 := by decide +kernel

/-- The table as an index vector reads entry `k` at the index of coordinate `k` (a rank-1 row-major position is
    the coordinate). -/
theorem groupTable_apply (k : Fin 2048) : groupTable (ix1 k) = lit0 k := by
  show lit0 (S2048.rowMajor (ix1 k)) = lit0 k
  refine congrArg lit0 (Fin.ext ?_)
  exact Shape.rowMajor_val_one _

/-- The start index of feature `k` is the table's entry: the select on a constantly false mask keeps the table. -/
theorem startIdx_apply (k : Fin 2048) : startIdx (ix2 k (0 : Fin 1)) = lit0 k := by
  unfold startIdx
  refine (broadcastInDim_apply _ _ _ _ (ix1 k) (fun a => match a with | ⟨0, _⟩ => rfl)).trans ?_
  rw [select_apply, constantI_apply, select_zero]
  exact groupTable_apply k

/-- The pairwise differences at `(i, j, k)`: sample `j`'s feature minus sample `i`'s. -/
theorem diffs_apply (X : FVec Ideal S64x2048 .f32) (i j : Fin 64) (k : Fin 2048) :
    diffs X (ix3 i j k) = X (ix2 j k) - X (ix2 i k) := by
  have e1 : broadcastInDim S64x64x2048 ![0, 1, 2] bcast_S1x64x2048_S64x64x2048_0_1_2
      (broadcastInDim S1x64x2048 ![1, 2] bcast_S64x2048_S1x64x2048_1_2 X) (ix3 i j k) = X (ix2 j k) :=
    (broadcastInDim_apply _ _ _ _ (ix3 (0 : Fin 1) j k)
      (fun a => match a with | ⟨0, _⟩ => rfl | ⟨1, _⟩ => rfl | ⟨2, _⟩ => rfl)).trans
    (broadcastInDim_apply _ _ _ _ (ix2 j k) (fun a => match a with | ⟨0, _⟩ => rfl | ⟨1, _⟩ => rfl))
  have e2 : broadcastInDim S64x64x2048 ![0, 1, 2] bcast_S64x1x2048_S64x64x2048_0_1_2
      (broadcastInDim S64x1x2048 ![0, 2] bcast_S64x2048_S64x1x2048_0_2 X) (ix3 i j k) = X (ix2 i k) :=
    (broadcastInDim_apply _ _ _ _ (ix3 i (0 : Fin 1) k)
      (fun a => match a with | ⟨0, _⟩ => rfl | ⟨1, _⟩ => rfl | ⟨2, _⟩ => rfl)).trans
    (broadcastInDim_apply _ _ _ _ (ix2 i k) (fun a => match a with | ⟨0, _⟩ => rfl | ⟨1, _⟩ => rfl))
  unfold diffs
  rw [subf_apply, e1, e2]

/-- The gather's dimension numbers. -/
abbrev gd : GatherDims S64x64x6 S2048x1 S64x64x2048 := gather_S64x64x6_S2048x1_S64x64x2048_01_2_n_n_2_1_64641

/-- The operand index the gather reads for result index `(i, j, k)`: the two offset coordinates `i`, `j`
    unchanged, and on the collapsed last axis the start index of `k` read signed and clamped into `0 … 5`. -/
theorem operandIdx_eq (idx : IVec S2048x1 32) (i j : Fin 64) (k : Fin 2048) (g : Fin 6)
    (hg : min (idx (ix2 k (0 : Fin 1))).toInt.toNat 5 = g.val) :
    gd.operandIdx (ix3 i j k) idx = ix3 i j g := by
  funext a
  refine Fin.ext ?_
  match a with
  | ⟨0, _⟩ =>
    show gd.start (ix3 i j k) idx 0 + gd.batchCoord (ix3 i j k) 0 + gd.offCoord (ix3 i j k) 0 = i.val
    have h1 : gd.start (ix3 i j k) idx 0 = 0 := rfl
    have h2 : gd.batchCoord (ix3 i j k) 0 = 0 := rfl
    have h3 : gd.offCoord (ix3 i j k) 0 = i.val := rfl
    rw [h1, h2, h3]
    omega
  | ⟨1, _⟩ =>
    show gd.start (ix3 i j k) idx 1 + gd.batchCoord (ix3 i j k) 1 + gd.offCoord (ix3 i j k) 1 = j.val
    have h1 : gd.start (ix3 i j k) idx 1 = 0 := rfl
    have h2 : gd.batchCoord (ix3 i j k) 1 = 0 := rfl
    have h3 : gd.offCoord (ix3 i j k) 1 = j.val := rfl
    rw [h1, h2, h3]
    omega
  | ⟨2, _⟩ =>
    show gd.start (ix3 i j k) idx 2 + gd.batchCoord (ix3 i j k) 2 + gd.offCoord (ix3 i j k) 2 = g.val
    have h2 : gd.batchCoord (ix3 i j k) 2 = 0 := rfl
    have h3 : gd.offCoord (ix3 i j k) 2 = 0 := rfl
    have h1 : gd.start (ix3 i j k) idx 2 = min (idx (ix2 k (0 : Fin 1))).toInt.toNat 5 := by
      unfold GatherDims.start
      rw [dif_pos (show (2 : Fin 3) ∈ gd.startIndexMap from List.mem_singleton.mpr rfl)]
      have hsi : gd.siIdx (ix3 i j k) ⟨List.idxOf (2 : Fin 3) gd.startIndexMap,
          List.idxOf_lt_length_iff.2 (List.mem_singleton.mpr rfl)⟩ = ix2 k (0 : Fin 1) := by
        funext b; refine Fin.ext ?_
        match b with
        | ⟨0, _⟩ => rfl
        | ⟨1, _⟩ => rfl
      rw [hsi]
      rfl
    rw [h1, h2, h3, hg]
    omega

/-- The gathered weight at `(i, j, k)` is the pair's weight for the group of feature `k`. -/
theorem weights_apply (A : FVec Ideal S64x64x6 .f32) (i j : Fin 64) (k : Fin 2048) :
    weights A (ix3 i j k) = A (ix3 i j (Cert.TripletSpec.grp k)) := by
  show A (gd.operandIdx (ix3 i j k) startIdx) = _
  refine congrArg A (operandIdx_eq _ i j k _ ?_)
  rw [startIdx_apply]
  exact table_val k

/-- The weighted squared distance of the pair `(i, j)`: the sum over the features of the squared weighted
    differences. -/
theorem sqDist_apply (X : FVec Ideal S64x2048 .f32) (A : FVec Ideal S64x64x6 .f32) (i j : Fin 64) :
    sqDist X A (ix2 i j)
      = Cert.TripletSpec.sqRef (fun i k => X (ix2 i k)) (fun i j g => A (ix3 i j g)) i j := by
  have hR : S64x64x2048.Reduces [2] S64x64 := by decide
  unfold sqDist
  refine (hostReduceAdd_apply _ _ _ _ _).trans ?_
  refine (Ideal.hostReduceAdd_single reducesTo_S64x64x2048_S64x64_d2 hR _ _ _).trans ?_
  show Ideal.ofBits .f32 0x00000000#32 + ∑ k : Fin 2048, _ = _
  rw [Ideal.ofBits_zero_f32, zero_add]
  unfold Cert.TripletSpec.sqRef
  refine Finset.sum_congr rfl fun k _ => ?_
  have hl : hR.lift (ix2 i j) k = ix3 i j k := by
    funext a
    match a with
    | ⟨0, _⟩ => exact Fin.ext rfl
    | ⟨1, _⟩ => exact Fin.ext rfl
    | ⟨2, _⟩ => exact Fin.ext rfl
  rw [hl, mulf_apply, mulf_apply, weights_apply, diffs_apply]

/-- The label mask at `(i, j)` compares the labels of samples `i` and `j`. -/
theorem sameLabel_apply (T : IVec S64 32) (i j : Fin 64) :
    sameLabel T (ix2 i j) = Cert.TripletSpec.sameLabel (fun i => T (ix1 i)) i j := by
  have e1 : broadcastInDim S64x64 ![0, 1] bcast_S64x1_S64x64_0_1
      (broadcastInDim S64x1 ![0] bcast_S64_S64x1_0 T) (ix2 i j) = T (ix1 i) :=
    (broadcastInDim_apply _ _ _ _ (ix2 i (0 : Fin 1))
      (fun a => match a with | ⟨0, _⟩ => rfl | ⟨1, _⟩ => rfl)).trans
    (broadcastInDim_apply _ _ _ _ (ix1 i) (fun a => match a with | ⟨0, _⟩ => rfl))
  have e2 : broadcastInDim S64x64 ![0, 1] bcast_S1x64_S64x64_0_1
      (broadcastInDim S1x64 ![1] bcast_S64_S1x64_1 T) (ix2 i j) = T (ix1 j) :=
    (broadcastInDim_apply _ _ _ _ (ix2 (0 : Fin 1) j)
      (fun a => match a with | ⟨0, _⟩ => rfl | ⟨1, _⟩ => rfl)).trans
    (broadcastInDim_apply _ _ _ _ (ix1 j) (fun a => match a with | ⟨0, _⟩ => rfl))
  show IntOp.cmpi .eq _ _ = IntOp.cmpi .eq _ _
  rw [e1, e2]

/-- The distance at `(i, j)` is `√(max · ε)` of the squared distance there. -/
theorem dist_apply (sq : FVec Ideal S64x64 .f32) (i j : Fin 64) :
    dist sq (ix2 i j) = Cert.TripletSpec.dst (sq (ix2 i j)) := by
  show Ideal.sqrt (max (broadcastInDim S64x64 ![] bcast_S_S64x64 (id (constant (F := Ideal) S_ .f32 0x2B8CBCCC#32)) (ix2 i j))
    (sq (ix2 i j))) = _
  rw [broadcastInDim_scalar_apply, max_comm]
  rfl

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The row maximum over the pairs with equal labels, as a fold over the second coordinate. -/
theorem hardPos_apply (mk : IVec S64x64 1) (d : FVec Ideal S64x64 .f32) (i : Fin 64) :
    hardPos mk d (ix1 i)
      = (Finset.univ : Finset (Fin 64)).fold max (Ideal.ofBits .f32 0xFF800000#32)
          fun j => Scalar.select (mk (ix2 i j)) (d (ix2 i j)) (Ideal.ofBits .f32 0xFF800000#32) := by
  have hR : S64x64.Reduces [1] S64 := by decide
  unfold hardPos
  refine (Host.reduce_eq_fold_single _ _ _ reducesTo_S64x64_S64_d1 hR h_S_ (ix1 i)).trans ?_
  show (Finset.univ : Finset (Fin 64)).fold max (Ideal.ofBits .f32 0xFF800000#32) _ = _
  refine Finset.fold_congr fun j _ => ?_
  have hl : hR.lift (ix1 i) j = ix2 i j := by
    funext a
    match a with
    | ⟨0, _⟩ => exact Fin.ext rfl
    | ⟨1, _⟩ => exact Fin.ext rfl
  show select mk d _ (hR.lift (ix1 i) j) = _
  rw [hl, select_apply, broadcastInDim_scalar_apply]
  rfl

/-- The row minimum over the pairs with different labels, as a fold over the second coordinate. -/
theorem hardNeg_apply (mk : IVec S64x64 1) (d : FVec Ideal S64x64 .f32) (i : Fin 64) :
    hardNeg mk d (ix1 i)
      = (Finset.univ : Finset (Fin 64)).fold min (Ideal.ofBits .f32 0x7F800000#32)
          fun j => Scalar.select (mk (ix2 i j)) (Ideal.ofBits .f32 0x7F800000#32) (d (ix2 i j)) := by
  have hR : S64x64.Reduces [1] S64 := by decide
  unfold hardNeg
  refine (Host.reduce_eq_fold_single _ _ _ reducesTo_S64x64_S64_d1 hR h_S_ (ix1 i)).trans ?_
  show (Finset.univ : Finset (Fin 64)).fold min (Ideal.ofBits .f32 0x7F800000#32) _ = _
  refine Finset.fold_congr fun j _ => ?_
  have hl : hR.lift (ix1 i) j = ix2 i j := by
    funext a
    match a with
    | ⟨0, _⟩ => exact Fin.ext rfl
    | ⟨1, _⟩ => exact Fin.ext rfl
  show select mk _ d (hR.lift (ix1 i) j) = _
  rw [hl, select_apply, broadcastInDim_scalar_apply]
  rfl

/-- The mean of the hinges, as a sum over the rows divided by their number. -/
theorem meanHinge_apply (p n : FVec Ideal S64 .f32) :
    meanHinge p n ix0
      = Ideal.div (∑ i : Fin 64, max (p (ix1 i) - n (ix1 i) + Ideal.ofBits .f32 0x3E99999A#32) 0)
          (Ideal.ofBits .f32 0x42800000#32) := by
  unfold meanHinge
  rw [hostDivf_apply]
  refine congrArg₂ Ideal.div ?_ rfl
  refine (hostReduceAdd_apply _ _ _ _ _).trans ?_
  refine (Ideal.hostReduceAdd_total reducesTo_S64_S_d0 (fun b => b.elim0) _ _ _).trans ?_
  show Ideal.ofBits .f32 0x00000000#32 + ∑ i : (⟨1, ![64]⟩ : Shape).Idx, _ = _
  rw [Ideal.ofBits_zero_f32, zero_add, sum_idx1]
  refine Finset.sum_congr rfl fun i _ => ?_
  rw [maximumf_apply, addf_apply, subf_apply, broadcastInDim_scalar_apply, broadcastInDim_scalar_apply,
    constant_apply, constant_apply, Ideal.ofBits_zero_f32]

/-- THE READING: the reference's result is, at its one index, the specification's loss of the feature-by-feature
    squared distance and the label mask. -/
theorem result_eq (X : FVec Ideal S64x2048 .f32) (T : IVec S64 32) (A : FVec Ideal S64x64x6 .f32) :
    Cert.ReferenceIdeal.RefTerm.result (F := Ideal) X T A
      = fun _ => Cert.TripletSpec.loss
          (Cert.TripletSpec.sqRef (fun i k => X (ix2 i k)) (fun i j g => A (ix3 i j g)))
          (Cert.TripletSpec.sameLabel fun i => T (ix1 i)) := by
  funext idx
  rw [eq_ix0 idx]
  unfold result lossOf
  rw [meanHinge_apply]
  unfold Cert.TripletSpec.loss
  refine congrArg₂ Ideal.div ?_ rfl
  refine Finset.sum_congr rfl fun i _ => ?_
  unfold Cert.TripletSpec.hinge
  rw [hardPos_apply, hardNeg_apply]
  unfold Cert.TripletSpec.hardPos Cert.TripletSpec.hardNeg
  have hp : ∀ j : Fin 64, dist (sqDist X A) (ix2 i j)
      = Cert.TripletSpec.dst (Cert.TripletSpec.sqRef (fun i k => X (ix2 i k)) (fun i j g => A (ix3 i j g)) i j) :=
    fun j => by rw [dist_apply, sqDist_apply]
  simp only [hp, sameLabel_apply]

end Cert.ReferenceIdeal.RefRead

end
-- ==== Proof.Algebra.lean ====
/-
  On real inputs the two ways of writing the weighted squared distance agree.

  Fix two samples i, j. Feature by feature the squared distance is the sum over the 2048 features k of
  (a (g k) * (x j k - x i k))², the weight being that of the group g k of the feature. Group by group it is,
  for each of the six runs of consecutive features (five of 341 features, then one of 343), the squared weight
  of the run times max (|u|² + |v|² - 2 ⟨u, v⟩) 0, where u and v are the two samples restricted to the run.

  When every entry is a real number: the float pattern 0x40000000 is the real 2; for real vectors
  |u|² + |v|² - 2 ⟨u, v⟩ = ∑ (v k - u k)², a sum of squares, so it is nonnegative and the maximum with 0 leaves it
  unchanged; w² * ∑ (v k - u k)² = ∑ (w * (v k - u k))²; and on the run with number g every feature has group g.
  Finally a sum over the 2048 features is the sum of the sums over the six runs, taken in order from zero.
-/
import proofs.«157513_j23716809408617_1_alg».proof.Proof.Spec
import Mathlib.Data.EReal.Operations
import Mathlib.Algebra.BigOperators.Fin
import Mathlib.Algebra.Order.BigOperators.Ring.Finset

noncomputable section

namespace Cert.TripletSpec

open Idealize.ShloMosaic

/-- The float pattern `0x40000000` is the real number 2. -/
theorem ofBits_two : Ideal.ofBits .f32 0x40000000#32 = ((2 : ℝ) : EReal) := by
  simp [Ideal.ofBits, Ideal.ieee, -EReal.coe_mul]; norm_num

/-- The inclusion of the reals in the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert b t hb ih => rw [Finset.sum_insert hb, Finset.sum_insert hb, EReal.coe_add, ih]

/-- The inclusion of the reals in the extended reals commutes with the maximum. -/
theorem coe_max' (p q : ℝ) : ((max p q : ℝ) : EReal) = max (p : EReal) (q : EReal) :=
  EReal.coe_strictMono.monotone.map_max

/-- For real vectors `u v` and a real weight `w`: `w² * max (|u|² + |v|² - 2 ⟨u, v⟩) 0 = ∑ (w (v k - u k))²`. -/
theorem run_real (n : ℕ) (w : ℝ) (u v : Fin n → ℝ) :
    (w * w) * max ((∑ k, u k * u k) + (∑ k, v k * v k) - 2 * ∑ k, u k * v k) 0
      = ∑ k, (w * (v k - u k)) * (w * (v k - u k)) := by
  have hsq : (∑ k, u k * u k) + (∑ k, v k * v k) - 2 * ∑ k, u k * v k
      = ∑ k, (v k - u k) * (v k - u k) := by
    rw [Finset.mul_sum, ← Finset.sum_add_distrib, ← Finset.sum_sub_distrib]
    exact Finset.sum_congr rfl fun k _ => by ring
  rw [hsq, max_eq_left (Finset.sum_nonneg fun k _ => mul_self_nonneg _), Finset.mul_sum]
  exact Finset.sum_congr rfl fun k _ => by ring

/-- One run's share, on real entries and with a real weight, is the run's sum of squared weighted differences. -/
theorem grpTerm_eq (x : Fin 64 → Fin 2048 → EReal) (xr : Fin 64 → Fin 2048 → ℝ)
    (hxr : ∀ i k, x i k = (xr i k : EReal)) (s n : ℕ) (h : s + n ≤ 2048) (w : EReal) (wr : ℝ)
    (hw : w = (wr : EReal)) (i j : Fin 64) :
    grpTerm x s n h w i j
      = ∑ k : Fin n, (w * (x j ⟨s + k.val, by omega⟩ - x i ⟨s + k.val, by omega⟩))
          * (w * (x j ⟨s + k.val, by omega⟩ - x i ⟨s + k.val, by omega⟩)) := by
  subst hw
  unfold grpTerm nrm gram
  simp only [hxr, ofBits_two]
  simp only [← EReal.coe_mul, ← EReal.coe_sub, ← coe_sum, ← EReal.coe_add]
  rw [← EReal.coe_zero, ← coe_max', ← EReal.coe_mul]
  exact congrArg _ (run_real n wr (fun k => xr i ⟨s + k.val, by omega⟩) (fun k => xr j ⟨s + k.val, by omega⟩))

/-- A sum over the first `s + n` features is the sum over the first `s` plus the sum over the next `n`. -/
theorem prefix_add (T : Fin 2048 → EReal) (s n : ℕ) (h : s + n ≤ 2048) :
    (∑ k : Fin (s + n), T ⟨k.val, by omega⟩)
      = (∑ k : Fin s, T ⟨k.val, by omega⟩) + ∑ k : Fin n, T ⟨s + k.val, by omega⟩ := by
  rw [Fin.sum_univ_add]
  rfl

/-- One run's share is the run's part of the feature-by-feature sum, when the run's features all have group `g`. -/
theorem grpTerm_run (x : Fin 64 → Fin 2048 → EReal) (a : Fin 64 → Fin 64 → Fin 6 → EReal)
    (xr : Fin 64 → Fin 2048 → ℝ) (hxr : ∀ i k, x i k = (xr i k : EReal))
    (ha : ∀ i j g, ∃ r : ℝ, a i j g = (r : EReal)) (i j : Fin 64)
    (s n : ℕ) (h : s + n ≤ 2048) (g : Fin 6) (hg : ∀ k : Fin n, grp ⟨s + k.val, by omega⟩ = g) :
    grpTerm x s n h (a i j g) i j
      = ∑ k : Fin n, (fun k : Fin 2048 => (a i j (grp k) * (x j k - x i k)) * (a i j (grp k) * (x j k - x i k)))
          ⟨s + k.val, by omega⟩ := by
  obtain ⟨wr, hw⟩ := ha i j g
  rw [grpTerm_eq x xr hxr s n h (a i j g) wr hw i j]
  exact Finset.sum_congr rfl fun k _ => by simp only [hg k]

theorem sqKer_eq_sqRef (x : Fin 64 → Fin 2048 → EReal) (a : Fin 64 → Fin 64 → Fin 6 → EReal)
    (hx : ∀ i k, ∃ r : ℝ, x i k = (r : EReal)) (ha : ∀ i j g, ∃ r : ℝ, a i j g = (r : EReal)) (i j : Fin 64) :
    sqKer x a i j = sqRef x a i j := by
  choose xr hxr using hx
  have hgrp : ∀ (s n : ℕ) (g : Fin 6) (h : s + n ≤ 2048), s = 341 * g.val → (g.val < 5 → n = 341) →
      ∀ k : Fin n, grp ⟨s + k.val, by omega⟩ = g := by
    intro s n g h hs hn k
    apply Fin.ext
    show min ((s + k.val) / 341) 5 = g.val
    have := k.isLt
    have := g.isLt
    omega
  unfold sqKer
  rw [grpTerm_run x a xr hxr ha i j 0 341 (by omega) 0 (hgrp 0 341 0 (by omega) rfl (fun _ => rfl)),
    grpTerm_run x a xr hxr ha i j 341 341 (by omega) 1 (hgrp 341 341 1 (by omega) rfl (fun _ => rfl)),
    grpTerm_run x a xr hxr ha i j 682 341 (by omega) 2 (hgrp 682 341 2 (by omega) rfl (fun _ => rfl)),
    grpTerm_run x a xr hxr ha i j 1023 341 (by omega) 3 (hgrp 1023 341 3 (by omega) rfl (fun _ => rfl)),
    grpTerm_run x a xr hxr ha i j 1364 341 (by omega) 4 (hgrp 1364 341 4 (by omega) rfl (fun _ => rfl)),
    grpTerm_run x a xr hxr ha i j 1705 343 (by omega) 5 (hgrp 1705 343 5 (by omega) rfl (fun h => absurd h (by decide)))]
  unfold sqRef
  set T : Fin 2048 → EReal :=
    fun k => (a i j (grp k) * (x j k - x i k)) * (a i j (grp k) * (x j k - x i k)) with hT
  have h0 : (0 : EReal) = ∑ k : Fin 0, T ⟨k.val, by omega⟩ := by simp
  rw [h0, ← prefix_add T 0 341 (by omega), ← prefix_add T (0 + 341) 341 (by omega),
    ← prefix_add T (0 + 341 + 341) 341 (by omega), ← prefix_add T (0 + 341 + 341 + 341) 341 (by omega),
    ← prefix_add T (0 + 341 + 341 + 341 + 341) 341 (by omega),
    ← prefix_add T (0 + 341 + 341 + 341 + 341 + 341) 343 (by omega)]

end Cert.TripletSpec

end
-- ==== Proof.Finite.lean ====
/-
  The precondition on the inputs says that every entry of the two float arrays is a real number.

  The precondition is the conjunction of two statements of the same kind, one for the 64 × 2048 array of features
  and one for the 64 × 64 × 6 array of weights: the conjunction, over all entries x of the array, of |x| < +∞.
  A conjunction that holds has every conjunct holding, so |x| < +∞ at every entry. In the extended reals
  |x| = max x (-x), and the float pattern 0x7F800000 is +∞. If x = +∞ then |x| = +∞, which is not below +∞; if
  x = -∞ then -x = +∞ and again |x| = +∞. So x is neither infinity: it is a real number.
-/
import proofs.«157513_j23716809408617_1_alg».proof.Pre_finite_inputs
import proofs.«157513_j23716809408617_1_alg».proof.Proof.Gen.Pre_finite_inputs
import Idealize.ShloMosaic.Lib.ReduceAll
import Idealize.ShloMosaic.PureOps.Ideal
import Idealize.ShloMosaic.Lib.ValueIdx

noncomputable section

namespace Cert.Pre_finite_inputs.Finite

open Idealize.ShloMosaic Cert.Pre_finite_inputs

/-- The float pattern `0x7F800000` is +∞. -/
theorem ofBits_inf : Ideal.ofBits .f32 0x7F800000#32 = (⊤ : EReal) := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem real_of_pre (X : FVec Ideal S64x2048 .f32) (T : IVec S64 32) (A : FVec Ideal S64x64x6 .f32)
    (h : Cert.Pre_finite_inputs.fn (F := Ideal) X T A = fun _ => 1#1) :
    (∀ i, ∃ r : ℝ, X i = (r : EReal)) ∧ (∀ i, ∃ r : ℝ, A i = (r : EReal)) := by
  have h0 := congrFun h ValueIdx.ix0
  dsimp only [fn, andi] at h0
  obtain ⟨h1, h2⟩ := IntOp.andi_eq_one.1 h0
  haveI : Subsingleton S_.Idx := ⟨fun a b => funext fun d => d.elim0⟩
  refine ⟨fun i => ?_, fun i => ?_⟩
  · have e := Host.reduce_andi_all _ _ _ _ _ h1 i
    exact real_of_abs_lt (X i) e
  · have e := Host.reduce_andi_all _ _ _ _ _ h2 i
    exact real_of_abs_lt (A i) e

end Cert.Pre_finite_inputs.Finite

end
-- ==== Proof.lean ====
/-
  Equivalence, over the extended reals, of a fused triplet-loss kernel with its reference.

  Both programs take 64 samples of 2048 features, an integer label per sample and six weights per ordered pair of
  samples (one per feature group: five runs of 341 consecutive features, then one of 343), and return the mean over
  the samples of `max (hardest positive - hardest negative + margin) 0`, the distances being
  `√(max (weighted squared distance) ε)`. The reference sums `(w (x j k - x i k))²` over all 2048 features, the
  weight of a feature being that of its group. The kernel computes each group's share as the squared weight times
  `max (|x i|² + |x j|² - 2 ⟨x i, x j⟩) 0` from a Gram matrix. On finite inputs the two squared distances agree
  (a sum of squares is nonnegative, so the maximum with zero is the identity; a common factor moves across a finite
  sum of reals), and everything after the squared distance is the same function of it and of the label mask.

  The kernel's run and value are in Proof/KerRun.lean and Proof/KerRead.lean, the reference's in Proof/RefRun.lean and
  Proof/RefRead.lean, the two squared distances' agreement in Proof/Algebra.lean, and the finiteness the precondition
  gives in Proof/Finite.lean.
-/
import proofs.«157513_j23716809408617_1_alg».proof.Defs
import proofs.«157513_j23716809408617_1_alg».proof.Proof.Gen.Kernel
import proofs.«157513_j23716809408617_1_alg».proof.Proof.Gen.Kernel.Frame
import proofs.«157513_j23716809408617_1_alg».proof.Proof.Gen.KernelIdeal
import proofs.«157513_j23716809408617_1_alg».proof.Proof.Gen.KernelIdeal.Frame
import proofs.«157513_j23716809408617_1_alg».proof.Proof.Gen.ReferenceIdeal
import proofs.«157513_j23716809408617_1_alg».proof.Proof.Gen.Pre_finite_inputs
import proofs.«157513_j23716809408617_1_alg».proof.Proof.KerRun
import proofs.«157513_j23716809408617_1_alg».proof.Proof.KerRead
import proofs.«157513_j23716809408617_1_alg».proof.Proof.RefRun
import proofs.«157513_j23716809408617_1_alg».proof.Proof.RefRead
import proofs.«157513_j23716809408617_1_alg».proof.Proof.Algebra
import proofs.«157513_j23716809408617_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both programs end at the specification's loss: the kernel at that of the group-by-group squared distance, the
    reference at that of the feature-by-feature one; the precondition makes every float entry a real, where the two
    squared distances agree. -/
theorem algebraic : Cert.algebraic_KernelIdeal_ReferenceIdeal := by
  intro m ρ m' ρ' hpre hagree
  refine ⟨fun c => fun _ => Cert.TripletSpec.loss
      (Cert.TripletSpec.sqKer (fun i k => m ((c.tc : Thread Cert.KernelIdeal.nD Cert.KernelIdeal.τ).loc Cert.KernelIdeal.main_arg0) (ix2 i k))
        (fun i j g => m ((c.tc : Thread Cert.KernelIdeal.nD Cert.KernelIdeal.τ).loc Cert.KernelIdeal.main_arg2) (ix3 i j g)))
      (Cert.TripletSpec.sameLabel fun i => m ((c.tc : Thread Cert.KernelIdeal.nD Cert.KernelIdeal.τ).loc Cert.KernelIdeal.main_arg1) (ix1 i)), ?_, ?_⟩
  · exact (θ_run Cert.KernelIdeal.defs _ _).mono
      (fun _ h c => ⟨(h c).1.trans (Cert.KernelIdeal.KerRead.kernel_value _ _ _), (h c).2⟩)
      (Cert.KernelIdeal.KerRun.run (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2, Cert.ReferenceIdeal.RefRead.result_eq]
    obtain ⟨hX, hA⟩ := Cert.Pre_finite_inputs.Finite.real_of_pre _ _ _ (hpre c)
    funext _
    refine congrArg₂ Cert.TripletSpec.loss (funext fun i => funext fun j => ?_) rfl
    exact (Cert.TripletSpec.sqKer_eq_sqRef _ _ (fun i k => hX (ix2 i k)) (fun i j g => hA (ix3 i j g)) i j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
